-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x64 .f32) (main_arg11 : FVec F S128x64 .f32) (main_arg12 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S2000x128 : Shape := ⟨2, ![2000, 128]⟩
abbrev S800000x128 : Shape := ⟨2, ![800000, 128]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 84
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x64, .f32⟩
  | .hbm, ⟨83, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x64, .f32⟩
  | .local _ .vmem, ⟨35, _⟩ => ⟨S128x64, .f32⟩
  | .local _ .vmem, ⟨36, _⟩ => ⟨S1x64, .f32⟩
  | .local _ .vmem, ⟨37, _⟩ => ⟨S2000x64, .f32⟩
  | .local _ .vmem, ⟨38, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem5_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14_0) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | 3 => ⟨S_, .f32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x64, .f32⟩
  | 10 => ⟨S50000x64, .f32⟩
  | 11 => ⟨S50000x64, .f32⟩
  | 12 => ⟨S_, .f32⟩
  | 13 => ⟨S50000, .f32⟩
  | 14 => ⟨S50000x1, .f32⟩
  | 15 => ⟨S50000x1, .f32⟩
  | 16 => ⟨S50000x64, .f32⟩
  | 17 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call1_cst : Ref sig .tc := ⟨.hbm, 55, rfl⟩
abbrev main_call1_v0 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_5 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call2_cst : Ref sig .tc := ⟨.hbm, 93, rfl⟩
abbrev main_call2_v0 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v92 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its RESULT kept in view. The program is four row-blocked pipelines among four
  stretches of host operations; its run is the chain of those eight segments, each entered from the buffer contents the
  previous one leaves. The frame statement only keeps the thirteen argument arrays; here the same chain is read once
  more with one more buffer kept: after the run, the result array holds what the LAST segment boundary's contents
  (`W8`: the fourth pipeline's arrays at what its write-backs leave, every other buffer as that pipeline found it)
  say it holds. Everything after this module is about what those contents are.
-/
import proofs.«154582_j15977278341936_1_alg».proof.Proof.Gen.KernelIdeal.Frame

set_option maxRecDepth 16384

noncomputable section

namespace Cert.Bridge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-regions theorem's implicit arguments are found by unifying its conclusion with this one, which takes
-- unfolding plain definitions in a metavariable's type
set_option backward.isDefEq.respectTransparency.types false in
/-- Every weakly fair execution of the program terminates, nothing faulting; the result array ends at the last
    boundary's contents and the thirteen arguments end as launched. -/
theorem run_result : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.Bridge.Run

end
-- ==== Proof.Payloads.lean ====
/-
  The four kernel bodies' arithmetic read at ONE index of a row block, at the ideal values: each payload of the
  generated skeleton at (p, q) as a plain formula of the loaded blocks at row p. A change of format is the identity
  there, a product into the zero accumulator is the sum over the contracted coordinate, the bias row is read at its
  lane, and the last body's two lane reductions are a fold of max and a sum over the 64 lanes.
-/
import proofs.«154582_j15977278341936_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.Payloads

open Cert.KernelIdeal Cert.KernelIdeal.Gen Idealize.ShloMosaic Idealize.ShloMosaic.ValueIdx

/-! ## A matmul into the zero accumulator, read at one index -/

/-- Coordinate 0 of the left operand's index is the output row. -/
theorem lhs128_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- Coordinate 1 of the right operand's index is the output column. -/
theorem rhs128_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The [2000,128]·[128,128] product into the zero accumulator at (p, q): the sum over the contracted coordinate. -/
theorem mm128_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs128_0 _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs128_1 _ _)
  rw [el, er]

/-! ## The bias row broadcast over the block's rows -/

/-- A [1,128] row, cast twice to its own shape and broadcast over 2000 rows, reads at (p, q) the row at q. -/
theorem bias128_apply {α : Type} (b : S1x128.Idx → α) (h1 h2 : S1x128.ShapeCasts S1x128) (hb : S1x128.Broadcasts S2000x128)
    (p : Fin 2000) (q : Fin 128) :
    broadcastTo S2000x128 (shapeCast S1x128 (shapeCast S1x128 b h1) h2) hb (ix2 p q) = b (ix2 (0 : Fin 1) q) := by
  rw [shapeCast_self, shapeCast_self]
  exact broadcastTo_1b_ab_apply b hb p q

/-! ## The input projection -/

/-- The projection's first payload at (p, q): row p of the block times column q of the weight, plus the bias at q. -/
theorem proj_pay (x0 : Vec Ideal S2000x128 .f32) (x2 : Vec Ideal S128x128 .f32) (x5 : Vec Ideal S1x128 .f32)
    (p : Fin 2000) (q : Fin 128) :
    k0_pay1 (F := Ideal) x0 x2 x5 (ix2 p q)
      = (∑ k : Fin 128, x0 (ix2 p k) * x2 (ix2 k q)) + x5 (ix2 (0 : Fin 1) q) := by
  unfold k0_pay1
  show matmul dot_S2000x128_S128x128_S2000x128_1_0_0_1_n_n none (truncf .bf16 x0 _) (truncf .bf16 x2 _)
        (constant (F := Ideal) S2000x128 .f32 0x00000000#32) (ix2 p q)
      + broadcastTo S2000x128 (shapeCast S1x128 (shapeCast S1x128 x5 _) _) _ (ix2 p q) = _
  rw [mm128_apply, bias128_apply]
  rfl

/-- The projection's second payload at (p, q): the first one's maximum with zero. -/
theorem relu_pay (x0 : Vec Ideal S2000x128 .f32) (x2 : Vec Ideal S128x128 .f32) (x5 : Vec Ideal S1x128 .f32)
    (p : Fin 2000) (q : Fin 128) :
    k0_pay2 (F := Ideal) x0 x2 x5 (ix2 p q)
      = max (k0_pay1 (F := Ideal) x0 x2 x5 (ix2 p q)) (Ideal.ofBits .f32 0x00000000#32) := rfl

/-! ## The middle layers -/

/-- A middle layer's payload at (p, q): the two products' sum plus the bias, its maximum with zero, plus the constant
    times the residual input. -/
theorem mid_pay (a h : Vec Ideal S2000x128 .f32) (wl wr : Vec Ideal S128x128 .f32) (b : Vec Ideal S1x128 .f32)
    (inp : Vec Ideal S2000x128 .f32) (p : Fin 2000) (q : Fin 128) :
    k1_pay1 (F := Ideal) a h wl wr b inp (ix2 p q)
      = max (((∑ k : Fin 128, a (ix2 p k) * wl (ix2 k q)) + (∑ k : Fin 128, h (ix2 p k) * wr (ix2 k q)))
              + b (ix2 (0 : Fin 1) q)) (Ideal.ofBits .f32 0x00000000#32)
        + Ideal.ofBits .f32 0x3E4CCCCD#32 * inp (ix2 p q) := by
  unfold k1_pay1
  simp only [shapeCast_self]
  show max ((matmul dot_S2000x128_S128x128_S2000x128_1_0_0_1_n_n none (truncf .bf16 a _) (truncf .bf16 wl _)
              (constant (F := Ideal) S2000x128 .f32 0x00000000#32) (ix2 p q)
            + matmul dot_S2000x128_S128x128_S2000x128_1_0_0_1_n_n none (truncf .bf16 h _) (truncf .bf16 wr _)
              (constant (F := Ideal) S2000x128 .f32 0x00000000#32) (ix2 p q))
          + broadcastTo S2000x128 b _ (ix2 p q)) (Ideal.ofBits .f32 0x00000000#32)
      + Ideal.ofBits .f32 0x3E4CCCCD#32 * inp (ix2 p q) = _
  rw [mm128_apply, mm128_apply, broadcastTo_1b_ab_apply]
  rfl

/-- The second middle layer's payload is the first one's. -/
theorem k2_eq_k1 : @k2_pay1 = @k1_pay1 := rfl

/-- The second middle layer's payload at (p, q). -/
theorem mid_pay' (a h : Vec Ideal S2000x128 .f32) (wl wr : Vec Ideal S128x128 .f32) (b : Vec Ideal S1x128 .f32)
    (inp : Vec Ideal S2000x128 .f32) (p : Fin 2000) (q : Fin 128) :
    k2_pay1 (F := Ideal) a h wl wr b inp (ix2 p q)
      = max (((∑ k : Fin 128, a (ix2 p k) * wl (ix2 k q)) + (∑ k : Fin 128, h (ix2 p k) * wr (ix2 k q)))
              + b (ix2 (0 : Fin 1) q)) (Ideal.ofBits .f32 0x00000000#32)
        + Ideal.ofBits .f32 0x3E4CCCCD#32 * inp (ix2 p q) := by
  rw [k2_eq_k1]
  exact mid_pay a h wl wr b inp p q

/-! ## The output layer -/

/-- Coordinate 0 of the left operand's index is the output row. -/
theorem lhs64_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- Coordinate 1 of the right operand's index is the output lane. -/
theorem rhs64_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The [2000,128]·[128,64] product into the zero accumulator at (p, q): the sum over the contracted coordinate. -/
theorem mm64_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  refine (Ideal.matmul_constant_zero_apply dot_S2000x128_S128x64_S2000x64_1_0_0_1_n_n none l r (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact lhs64_0 _ _
      | ⟨1, _⟩ => exact (dot_S2000x128_S128x64_S2000x64_1_0_0_1_n_n.lhsIdx_val_of_single rfl _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (dot_S2000x128_S128x64_S2000x64_1_0_0_1_n_n.rhsIdx_val_of_single rfl _ _).trans hk
      | ⟨1, _⟩ => exact rhs64_1 _ _)
  rw [el, er]

/-- A vector of `a` entries cast to an [a,1] column reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a,1] column broadcast over b lanes reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with lane q inserted on the reduced axis is (p, q). -/
theorem lift64 (hr : S2000x64.Reduces [1] S2000) (p : Fin 2000) (q : Fin 64) : hr.lift (ix1 p) q = ix2 p q :=
  funext fun c => Fin.ext (by
    match c with
    | ⟨0, _⟩ => rfl
    | ⟨1, _⟩ => rfl)

/-- The maximum over the 64 lanes of row p, from the accumulator's value. -/
def rowMaxOf (y : FVec Ideal S2000x64 .f32) (p : Fin 2000) : EReal :=
  (Finset.univ : Finset (Fin 64)).fold max (Ideal.ofBits .f32 0xFF800000#32) (fun q => y (ix2 p q))

/-- The lane maximum, kept as a column and broadcast back over the lanes, reads at (p, q) row p's maximum. -/
theorem colmax_apply (y : FVec Ideal S2000x64 .f32) (hr : S2000x64.Reduces [1] S2000) (hφ : FKind.Formats .f32)
    (hmax : (0xFF800000#32 : BitVec FTy.f32.bits) = FKind.maximumf.neutral .f32 hφ)
    (hc : S2000.ShapeCasts S2000x1) (hb : S2000x1.Broadcasts S2000x64) (p : Fin 2000) (q : Fin 64) :
    broadcastTo S2000x64 (shapeCast S2000x1 (multiReduction .maximumf [1] S2000 y 0xFF800000#32 hr hφ hmax) hc) hb (ix2 p q)
      = rowMaxOf y p := by
  refine (broadcastTo_a1_ab_apply _ hb p q).trans ?_
  refine (shapeCast_a_a1_apply _ hc p 0).trans ?_
  refine (Ideal.multiReduction_maximumf_single y _ hr hφ hmax (ix1 p)).trans ?_
  exact congrArg (fun f : Fin 64 → EReal => (Finset.univ : Finset (Fin 64)).fold max (Ideal.ofBits .f32 0xFF800000#32) f)
    (funext fun q' => congrArg y (lift64 hr p q'))

/-- The lane sum, kept as a column, reads at (p, u) the sum over row p's 64 lanes. -/
theorem colsum_apply (e : FVec Ideal S2000x64 .f32) (hr : S2000x64.Reduces [1] S2000) (hφ : FKind.Formats .f32)
    (hadd : (0x00000000#32 : BitVec FTy.f32.bits) = FKind.add.neutral .f32 hφ)
    (hc : S2000.ShapeCasts S2000x1) (p : Fin 2000) (u : Fin 1) :
    shapeCast S2000x1 (multiReduction .add [1] S2000 e 0x00000000#32 hr hφ hadd) hc (ix2 p u)
      = ∑ q' : Fin 64, e (ix2 p q') := by
  refine (shapeCast_a_a1_apply _ hc p u).trans ?_
  refine (Ideal.multiReduction_add_single e _ hr hφ hadd (ix1 p)).trans ?_
  exact Finset.sum_congr rfl fun q' _ => congrArg e (lift64 hr p q')

/-- A block minus its row maxima, as the body takes them: the lane maximum kept as a column and broadcast back. -/
def shiftRows (y : FVec Ideal S2000x64 .f32) (hr : S2000x64.Reduces [1] S2000) (hφ : FKind.Formats .f32)
    (hmax : (0xFF800000#32 : BitVec FTy.f32.bits) = FKind.maximumf.neutral .f32 hφ)
    (hc : S2000.ShapeCasts S2000x1) (hb : S2000x1.Broadcasts S2000x64) : FVec Ideal S2000x64 .f32 :=
  subf y (broadcastTo S2000x64 (shapeCast S2000x1 (multiReduction .maximumf [1] S2000 y 0xFF800000#32 hr hφ hmax) hc) hb)

theorem shiftRows_apply (y : FVec Ideal S2000x64 .f32) (hr : S2000x64.Reduces [1] S2000) (hφ : FKind.Formats .f32)
    (hmax : (0xFF800000#32 : BitVec FTy.f32.bits) = FKind.maximumf.neutral .f32 hφ)
    (hc : S2000.ShapeCasts S2000x1) (hb : S2000x1.Broadcasts S2000x64) (p : Fin 2000) (q : Fin 64) :
    shiftRows y hr hφ hmax hc hb (ix2 p q) = y (ix2 p q) - rowMaxOf y p :=
  congrArg (fun m : EReal => y (ix2 p q) - m) (colmax_apply y hr hφ hmax hc hb p q)

/-- The log-softmax along the lanes, as the body computes it, at (p, q): the entry minus the row's maximum, minus the
    logarithm of the sum over the row's lanes of the exponentials of the same differences. -/
theorem logSoftmax_apply (y : FVec Ideal S2000x64 .f32) (hr : S2000x64.Reduces [1] S2000) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : S2000.ShapeCasts S2000x1) (hb : S2000x1.Broadcasts S2000x64) (p : Fin 2000) (q : Fin 64) :
    subf (shiftRows y hr hφ hmax hc hb)
        (broadcastTo S2000x64 (log (shapeCast S2000x1
          (multiReduction .add [1] S2000 (exp (shiftRows y hr hφ hmax hc hb)) 0x00000000#32 hr hφ hadd) hc)) hb) (ix2 p q)
      = (y (ix2 p q) - rowMaxOf y p) - Ideal.log (∑ q' : Fin 64, Ideal.exp (y (ix2 p q') - rowMaxOf y p)) := by
  have hY : broadcastTo S2000x64 (log (shapeCast S2000x1
        (multiReduction .add [1] S2000 (exp (shiftRows y hr hφ hmax hc hb)) 0x00000000#32 hr hφ hadd) hc)) hb (ix2 p q)
      = Ideal.log (∑ q' : Fin 64, Ideal.exp (y (ix2 p q') - rowMaxOf y p)) := by
    refine (broadcastTo_a1_ab_apply _ hb p q).trans ?_
    refine congrArg Ideal.log ?_
    refine (colsum_apply (exp (shiftRows y hr hφ hmax hc hb)) hr hφ hadd hc p 0).trans ?_
    exact Finset.sum_congr rfl fun q' _ => congrArg Ideal.exp (shiftRows_apply y hr hφ hmax hc hb p q')
  exact congrArg₂ (fun u v : EReal => u - v) (shiftRows_apply y hr hφ hmax hc hb p q) hY

/-- The output layer's logits block: the two products' sum plus the bias row. -/
def logits (a h : Vec Ideal S2000x128 .f32) (wl wr : Vec Ideal S128x64 .f32) (b : Vec Ideal S1x64 .f32) :
    FVec Ideal S2000x64 .f32 :=
  addf (addf
      (matmul dot_S2000x128_S128x64_S2000x64_1_0_0_1_n_n none
        (truncf .bf16 (shapeCast S2000x128 a shapeCasts_S2000x128_S2000x128) bitsLt_bf16_f32) (truncf .bf16 wl bitsLt_bf16_f32)
        (constant S2000x64 .f32 0x00000000#32))
      (matmul dot_S2000x128_S128x64_S2000x64_1_0_0_1_n_n none
        (truncf .bf16 (shapeCast S2000x128 h shapeCasts_S2000x128_S2000x128) bitsLt_bf16_f32) (truncf .bf16 wr bitsLt_bf16_f32)
        (constant S2000x64 .f32 0x00000000#32)))
    (broadcastTo S2000x64 (shapeCast S1x64 (shapeCast S1x64 b shapeCasts_S1x64_S1x64) shapeCasts_S1x64_S1x64)
      broadcasts_S1x64_S2000x64)

/-- The logit of row p at lane q. -/
def logit (a h : Vec Ideal S2000x128 .f32) (wl wr : Vec Ideal S128x64 .f32) (b : Vec Ideal S1x64 .f32)
    (p : Fin 2000) (q : Fin 64) : EReal :=
  ((∑ k : Fin 128, a (ix2 p k) * wl (ix2 k q)) + (∑ k : Fin 128, h (ix2 p k) * wr (ix2 k q))) + b (ix2 (0 : Fin 1) q)

/-- Row p's maximum logit, from the accumulator's value. -/
def rowMax (a h : Vec Ideal S2000x128 .f32) (wl wr : Vec Ideal S128x64 .f32) (b : Vec Ideal S1x64 .f32)
    (p : Fin 2000) : EReal :=
  (Finset.univ : Finset (Fin 64)).fold max (Ideal.ofBits .f32 0xFF800000#32) (logit a h wl wr b p)

theorem logits_apply (a h : Vec Ideal S2000x128 .f32) (wl wr : Vec Ideal S128x64 .f32) (b : Vec Ideal S1x64 .f32)
    (p : Fin 2000) (q : Fin 64) : logits a h wl wr b (ix2 p q) = logit a h wl wr b p q := by
  unfold logits logit
  simp only [shapeCast_self]
  show (matmul dot_S2000x128_S128x64_S2000x64_1_0_0_1_n_n none (truncf .bf16 a _) (truncf .bf16 wl _)
          (constant (F := Ideal) S2000x64 .f32 0x00000000#32) (ix2 p q)
        + matmul dot_S2000x128_S128x64_S2000x64_1_0_0_1_n_n none (truncf .bf16 h _) (truncf .bf16 wr _)
          (constant (F := Ideal) S2000x64 .f32 0x00000000#32) (ix2 p q))
      + broadcastTo S2000x64 b _ (ix2 p q) = _
  rw [mm64_apply, mm64_apply, broadcastTo_1b_ab_apply]
  rfl

theorem rowMaxOf_logits (a h : Vec Ideal S2000x128 .f32) (wl wr : Vec Ideal S128x64 .f32) (b : Vec Ideal S1x64 .f32)
    (p : Fin 2000) : rowMaxOf (logits a h wl wr b) p = rowMax a h wl wr b p :=
  congrArg (fun f : Fin 64 → EReal => (Finset.univ : Finset (Fin 64)).fold max (Ideal.ofBits .f32 0xFF800000#32) f)
    (funext fun q => logits_apply a h wl wr b p q)

/-- The output layer's payload at (p, q): the log-softmax of row p's logits at lane q. -/
theorem out_pay (a h : Vec Ideal S2000x128 .f32) (wl wr : Vec Ideal S128x64 .f32) (b : Vec Ideal S1x64 .f32)
    (p : Fin 2000) (q : Fin 64) :
    k3_pay1 (F := Ideal) a h wl wr b (ix2 p q)
      = (logit a h wl wr b p q - rowMax a h wl wr b p)
        - Ideal.log (∑ q' : Fin 64, Ideal.exp (logit a h wl wr b p q' - rowMax a h wl wr b p)) := by
  refine (logSoftmax_apply (logits a h wl wr b) reduces_S2000x64_S2000 (.inl rfl) rfl rfl
    shapeCasts_S2000_S2000x1 broadcasts_S2000x1_S2000x64 p q).trans ?_
  simp only [logits_apply, rowMaxOf_logits]

end Cert.Bridge.Payloads

end
-- ==== Proof.Proj.lean ====
/-
  The first pipeline: the input projection. Each of its 25 grid points takes rows 2000·t … 2000·t + 1999 of the
  node features, the whole weight matrix and the bias row, and writes the same rows of two arrays: the affine image
  z = x·W + b, and max(z, 0). Read at the ideal instance, point `t` therefore writes block `t` of ANY array `G` whose
  entry (r, q) is that formula of row r of the features; the 25 blocks tile the 50000 rows, so after the pipeline the
  array IS `G`.
-/
import proofs.«154582_j15977278341936_1_alg».proof.Proof.Gen.KernelIdeal.Frame
import proofs.«154582_j15977278341936_1_alg».proof.Proof.Payloads
import Idealize.ShloMosaic.Lib.Pipeline.Value
import Idealize.ShloMosaic.Lib.ValueIdx

set_option maxRecDepth 16384

noncomputable section

namespace Cert.Bridge.Proj

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the row windows (features, both outputs) sit at block (t, 0), the weight
    matrix and the bias row at block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem tlt (t : Fin cfg0.N) : t.val < 25 := lt_of_lt_of_eq t.isLt (N_0 : cfg0.N = 25)

/-- Row p of block t is row 2000·t + p of the array. -/
def row (t : Fin cfg0.N) (p : Fin 2000) : Fin 50000 := ⟨2000 * t.val + p.val, by have := tlt t; have := p.isLt; omega⟩

/-- The features' block at point t: rows 2000·t … of the array the pipeline finds. -/
theorem x_blk (c : Dev nD) (t : Fin cfg0.N) (p : Fin 2000) (k : Fin 128) :
    (iblk0 V c 0 t : Vec Ideal S2000x128 .f32) (ix2 p k) = (V c main_arg0 : S50000x128.Idx → EReal) (ix2 (row t p) k) := by
  obtain ⟨e0, e1, -⟩ := idx t
  unfold iblk0
  rw [View.read_apply]
  show V c main_arg0 _ = V c main_arg0 _
  refine congrArg _ ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- The weight window's one block is the whole matrix. -/
theorem w_blk (c : Dev nD) (t : Fin cfg0.N) (k q : Fin 128) :
    (iblk0 V c 1 t : Vec Ideal S128x128 .f32) (ix2 k q) = (V c main_arg2 : S128x128.Idx → EReal) (ix2 k q) := by
  obtain ⟨-, -, e0, e1, -⟩ := idx t
  unfold iblk0
  rw [View.read_apply]
  show V c main_arg2 _ = V c main_arg2 _
  refine congrArg _ ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias window's one block is the whole row. -/
theorem b_blk (c : Dev nD) (t : Fin cfg0.N) (q : Fin 128) :
    (iblk0 V c 2 t : Vec Ideal S1x128 .f32) (ix2 0 q) = (V c main_v13 : S1x128.Idx → EReal) (ix2 0 q) := by
  obtain ⟨-, -, -, -, e0, e1, -⟩ := idx t
  unfold iblk0
  rw [View.read_apply]
  show V c main_v13 _ = V c main_v13 _
  refine congrArg _ ?_
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Where row p, lane q of an output block at point t sits in the array (both outputs move alike). -/
theorem emb_inp (t : Fin cfg0.N) (p : Fin 2000) (q : Fin 128) :
    ((cfg0.win 3).blk t).view.emb (ix2 p q) = (ix2 (row t p) q : S50000x128.Idx) := by
  obtain ⟨-, -, -, -, -, -, e0, e1, -⟩ := idx t
  funext a; apply Fin.ext
  match a with
  | ⟨0, _⟩ => show win0_3.index t (0 : Fin 2) * 2000 + 1 * p.val = 2000 * t.val + p.val; omega
  | ⟨1, _⟩ => show win0_3.index t (1 : Fin 2) * 128 + 1 * q.val = q.val; omega

theorem emb_act (t : Fin cfg0.N) (p : Fin 2000) (q : Fin 128) :
    ((cfg0.win 4).blk t).view.emb (ix2 p q) = (ix2 (row t p) q : S50000x128.Idx) := by
  obtain ⟨-, -, -, -, -, -, -, -, e0, e1⟩ := idx t
  funext a; apply Fin.ext
  match a with
  | ⟨0, _⟩ => show win0_4.index t (0 : Fin 2) * 2000 + 1 * p.val = 2000 * t.val + p.val; omega
  | ⟨1, _⟩ => show win0_4.index t (1 : Fin 2) * 128 + 1 * q.val = q.val; omega

/-- The affine image of row r of a feature array X, lane q: X's row times the weight matrix's column, plus the bias. -/
def affineOf (X : S50000x128.Idx → EReal) (W : S128x128.Idx → EReal) (B : S1x128.Idx → EReal) (r : Fin 50000) (q : Fin 128) : EReal :=
  (∑ k : Fin 128, X (ix2 r k) * W (ix2 k q)) + B (ix2 0 q)

/-- … of the arrays the pipeline finds. -/
abbrev affine (c : Dev nD) (r : Fin 50000) (q : Fin 128) : EReal :=
  affineOf (V c main_arg0) (V c main_arg2) (V c main_v13) r q

/-- The first payload at a block's row p is the affine image of the array's row 2000·t + p. -/
theorem pay_affine (c : Dev nD) (t : Fin cfg0.N) (p : Fin 2000) (q : Fin 128) :
    k0_pay1 (F := Ideal) (iblk0 V c 0 t) (iblk0 V c 1 t) (iblk0 V c 2 t) (ix2 p q) = affine V c (row t p) q := by
  refine (Payloads.proj_pay _ _ _ p q).trans ?_
  show _ = affineOf (V c main_arg0) (V c main_arg2) (V c main_v13) (row t p) q
  unfold affineOf
  simp only [x_blk V c t p, w_blk V c t, b_blk V c t q]

/-- WHAT POINT t WRITES BACK to the first output: block t of any array whose entries are the affine images. -/
theorem flushed_inp (c : Dev nD) (t : Fin cfg0.N) (G : S50000x128.Idx → EReal)
    (hG : ∀ (r : Fin 50000) (q : Fin 128), G (ix2 r q) = affine V c r q) :
    (dat0 V c).flushed 3 t = ((cfg0.win 3).blk t).view.read (Elt Ideal) G := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q) = G (((cfg0.win 3).blk t).view.emb (ix2 p q))
  rw [emb_inp t p q, hG]
  exact pay_affine V c t p q

/-- … and to the second output: block t of any array whose entries are the affine images clipped below at zero. -/
theorem flushed_act (c : Dev nD) (t : Fin cfg0.N) (G : S50000x128.Idx → EReal)
    (hG : ∀ (r : Fin 50000) (q : Fin 128), G (ix2 r q) = max (affine V c r q) (Ideal.ofBits .f32 0x00000000#32)) :
    (dat0 V c).flushed 4 t = ((cfg0.win 4).blk t).view.read (Elt Ideal) G := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (iblk0 V c 2 t) (ix2 p q) = G (((cfg0.win 4).blk t).view.emb (ix2 p q))
  rw [emb_act t p q, hG]
  refine (Payloads.relu_pay _ _ _ p q).trans ?_
  rw [pay_affine V c t p q]

/-- Every index of the first output lies in the block of the point that owns its row: t = row / 2000. -/
theorem cover_inp (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) (N_0 : cfg0.N = 25).symm⟩, rfl⟩
  obtain ⟨-, -, -, -, -, -, e0, e1, -⟩ := idx t
  refine ⟨t, flush0_3 t, ?_⟩
  show i ∈ ((View.whole main_v14_0).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000
              omega
  | ⟨1, _⟩ => show win0_3.index t (1 : Fin 2) * 128 ≤ (i 1).val ∧ (i 1).val < win0_3.index t (1 : Fin 2) * 128 + 128
              omega

theorem cover_act (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, lt_of_lt_of_eq (by omega : (i 0).val / 2000 < 25) (N_0 : cfg0.N = 25).symm⟩, rfl⟩
  obtain ⟨-, -, -, -, -, -, -, -, e0, e1⟩ := idx t
  refine ⟨t, flush0_4 t, ?_⟩
  show i ∈ ((View.whole main_v14_1).slice (win0_4.rect t)).set
  rw [View.set_slice_whole, Rect.mem_set_unit]
  intro a
  match a with
  | ⟨0, _⟩ => show win0_4.index t (0 : Fin 2) * 2000 ≤ (i 0).val ∧ (i 0).val < win0_4.index t (0 : Fin 2) * 2000 + 2000
              omega
  | ⟨1, _⟩ => show win0_4.index t (1 : Fin 2) * 128 ≤ (i 1).val ∧ (i 1).val < win0_4.index t (1 : Fin 2) * 128 + 128
              omega

/-- AFTER THE PIPELINE the first output array is any `G` of affine images, the second any `G` of clipped ones. -/
theorem final_inp (c : Dev nD) (G : S50000x128.Idx → EReal)
    (hG : ∀ (r : Fin 50000) (q : Fin 128), G (ix2 r q) = affine V c r q) :
    (dat0 V c).arrAt 3 cfg0.N = G :=
  (dat0 V c).arrAt_eq_of_cover 3 G (fun t _ => flushed_inp V c t G hG) cover_inp

theorem final_act (c : Dev nD) (G : S50000x128.Idx → EReal)
    (hG : ∀ (r : Fin 50000) (q : Fin 128), G (ix2 r q) = max (affine V c r q) (Ideal.ofBits .f32 0x00000000#32)) :
    (dat0 V c).arrAt 4 cfg0.N = G :=
  (dat0 V c).arrAt_eq_of_cover 4 G (fun t _ => flushed_act V c t G hG) cover_act

end Cert.Bridge.Proj

end
-- ==== Proof.Mid1.lean ====
/-
  Pipeline 1: a graph-convolution layer with a residual. Each of its 25 grid points takes rows 2000·t … 2000·t + 1999
  of three arrays — the neighbour mean, the previous activations, the first projection — and the two whole weight
  matrices and the bias row, and writes the same rows of the new activations:
      max (mean·W_l + act·W_r + b, 0) + 0.2 · proj.
  Row r of the result depends on row r of the three arrays only. So point `t` writes block `t` of ANY array `G` whose
  entry (r, q) is that formula of the rows r; the 25 blocks tile the 50000 rows, so after the pipeline the array IS `G`.
-/
import proofs.«154582_j15977278341936_1_alg».proof.Proof.Gen.KernelIdeal.Frame
import proofs.«154582_j15977278341936_1_alg».proof.Proof.Payloads
import Idealize.ShloMosaic.Lib.Pipeline.Value
import Idealize.ShloMosaic.Lib.ValueIdx

set_option maxRecDepth 16384

noncomputable section

namespace Cert.Bridge.Mid1

open Cert.KernelIdeal Cert.KernelIdeal.Gen Idealize.ShloMosaic Idealize.ShloMosaic.TcCoe Idealize.SL.Sem
open Idealize.ShloMosaic.ValueIdx
open Idealize.ShloMosaic.Pipeline (Dat)

/-- One entry of a layer's output: row r of the neighbour mean `A` against `WL`, row r of the activations `H` against
    `WR`, the bias, clipped below at zero, plus 0.2 times the first projection's entry. -/
def layerOf (A H I : S50000x128.Idx → EReal) (WL WR : S128x128.Idx → EReal) (B : S1x128.Idx → EReal) (r : Fin 50000) (q : Fin 128) : EReal :=
  max (((∑ k : Fin 128, A (ix2 r k) * WL (ix2 k q)) + (∑ k : Fin 128, H (ix2 r k) * WR (ix2 k q))) + B (ix2 0 q)) (Ideal.ofBits .f32 0x00000000#32)
    + Ideal.ofBits .f32 0x3E4CCCCD#32 * I (ix2 r q)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the four row windows sit at block (t, 0), the weights and the bias at (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem tlt (t : Fin cfg1.N) : t.val < 25 := lt_of_lt_of_eq t.isLt (N_1 : cfg1.N = 25)

/-- Row p of block t is row 2000·t + p of the array. -/
def row (t : Fin cfg1.N) (p : Fin 2000) : Fin 50000 := ⟨2000 * t.val + p.val, by have := tlt t; have := p.isLt; omega⟩

/-- The neighbour mean's block at point t: rows 2000·t … of the array the pipeline finds. -/
theorem mean_blk (c : Dev nD) (t : Fin cfg1.N) (p : Fin 2000) (k : Fin 128) :
    (iblk1 V c 0 t : Vec Ideal S2000x128 .f32) (ix2 p k) = (V c main_v26 : S50000x128.Idx → EReal) (ix2 (row t p) k) := by
  obtain ⟨e0, e1, -⟩ := idx t
  unfold iblk1
  rw [View.read_apply]
  show V c main_v26 _ = V c main_v26 _
  refine congrArg _ ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- The activations' block at point t: rows 2000·t … of the array the pipeline finds. -/
theorem act_blk (c : Dev nD) (t : Fin cfg1.N) (p : Fin 2000) (k : Fin 128) :
    (iblk1 V c 1 t : Vec Ideal S2000x128 .f32) (ix2 p k) = (V c main_v14_1 : S50000x128.Idx → EReal) (ix2 (row t p) k) := by
  obtain ⟨-, -, e0, e1, -⟩ := idx t
  unfold iblk1
  rw [View.read_apply]
  show V c main_v14_1 _ = V c main_v14_1 _
  refine congrArg _ ?_
  funext a; apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega

/-- The first projection's block at point t: rows 2000·t … of the array the pipeline finds. -/
theorem proj_blk (c : Dev nD) (t : Fin cfg1.N) (p : Fin 2000) (k : Fin 128) :
    (iblk1 V c 5 t : Vec Ideal S2000x128 .f32) (ix2 p k) = (V c main_v14_0 : S50000x128.Idx → EReal) (ix2 (row t p) k) := by
  obtain ⟨-, -, -, -, -, -, -, -, -, -, e0, e1, -⟩ := idx t
  unfold iblk1
  rw [View.read_apply]
  show V c main_v14_0 _ = V c main_v14_0 _
  refine congrArg _ ?_
  funext a; apply Fin.ext
  match a with
  | ⟨0, _⟩ => show win1_5.index t (0 : Fin 2) * 2000 + 1 * p.val = 2000 * t.val + p.val; omega
  | ⟨1, _⟩ => show win1_5.index t (1 : Fin 2) * 128 + 1 * k.val = k.val; omega

/-- A weight window's one block is the whole matrix. -/
theorem wl_blk (c : Dev nD) (t : Fin cfg1.N) (k q : Fin 128) :
    (iblk1 V c 2 t : Vec Ideal S128x128 .f32) (ix2 k q) = (V c main_arg4 : S128x128.Idx → EReal) (ix2 k q) := by
  obtain ⟨-, -, -, -, e0, e1, -⟩ := idx t
  unfold iblk1
  rw [View.read_apply]
  show V c main_arg4 _ = V c main_arg4 _
  refine congrArg _ ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- A weight window's one block is the whole matrix. -/
theorem wr_blk (c : Dev nD) (t : Fin cfg1.N) (k q : Fin 128) :
    (iblk1 V c 3 t : Vec Ideal S128x128 .f32) (ix2 k q) = (V c main_arg5 : S128x128.Idx → EReal) (ix2 k q) := by
  obtain ⟨-, -, -, -, -, -, e0, e1, -⟩ := idx t
  unfold iblk1
  rw [View.read_apply]
  show V c main_arg5 _ = V c main_arg5 _
  refine congrArg _ ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias window's one block is the whole row. -/
theorem b_blk (c : Dev nD) (t : Fin cfg1.N) (q : Fin 128) :
    (iblk1 V c 4 t : Vec Ideal S1x128 .f32) (ix2 0 q) = (V c main_v27 : S1x128.Idx → EReal) (ix2 0 q) := by
  obtain ⟨-, -, -, -, -, -, -, -, e0, e1, -⟩ := idx t
  unfold iblk1
  rw [View.read_apply]
  show V c main_v27 _ = V c main_v27 _
  refine congrArg _ ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- Where row p, lane q of the output block at point t sits in the array. -/
theorem emb_out (t : Fin cfg1.N) (p : Fin 2000) (q : Fin 128) :
    ((cfg1.win 6).blk t).view.emb (ix2 p q) = (ix2 (row t p) q : S50000x128.Idx) := by
  obtain ⟨-, -, -, -, -, -, -, -, -, -, -, -, e0, e1⟩ := idx t
  funext a; apply Fin.ext
  match a with
  | ⟨0, _⟩ => show win1_6.index t (0 : Fin 2) * 2000 + 1 * p.val = 2000 * t.val + p.val; omega
  | ⟨1, _⟩ => show win1_6.index t (1 : Fin 2) * 128 + 1 * q.val = q.val; omega

/-- The layer's entry (r, q) from the arrays the pipeline finds. -/
abbrev layer (c : Dev nD) (r : Fin 50000) (q : Fin 128) : EReal :=
  layerOf (V c main_v26) (V c main_v14_1) (V c main_v14_0) (V c main_arg4) (V c main_arg5) (V c main_v27) r q

/-- The payload at a block's row p is the layer's entry at the array's row 2000·t + p. -/
theorem pay_layer (c : Dev nD) (t : Fin cfg1.N) (p : Fin 2000) (q : Fin 128) :
    k1_pay1 (F := Ideal) (iblk1 V c 0 t) (iblk1 V c 1 t) (iblk1 V c 2 t) (iblk1 V c 3 t) (iblk1 V c 4 t) (iblk1 V c 5 t) (ix2 p q)
      = layer V c (row t p) q := by
  refine (Payloads.mid_pay _ _ _ _ _ _ p q).trans ?_
  show _ = layerOf (V c main_v26) (V c main_v14_1) (V c main_v14_0) (V c main_arg4) (V c main_arg5) (V c main_v27) (row t p) q
  unfold layerOf
  simp only [mean_blk V c t p, act_blk V c t p, proj_blk V c t p, wl_blk V c t, wr_blk V c t, b_blk V c t q]

/-- WHAT POINT t WRITES BACK: block t of any array whose entries are the layer's. -/
theorem flushed_out (c : Dev nD) (t : Fin cfg1.N) (G : S50000x128.Idx → EReal)
    (hG : ∀ (r : Fin 50000) (q : Fin 128), G (ix2 r q) = layer V c r q) :
    (dat1 V c).flushed 6 t = ((cfg1.win 6).blk t).view.read (Elt Ideal) G := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = G (((cfg1.win 6).blk t).view.emb (ix2 p q))
  rw [emb_out t p q, hG]
  exact pay_layer V c t p q

/-- Every index of the output lies in the block of the point that owns its row: t = row / 2000. -/
theorem cover_out (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, lt_of_lt_of_eq (by omega : (i 0).val / 2000 < 25) (N_1 : cfg1.N = 25).symm⟩, rfl⟩
  obtain ⟨-, -, -, -, -, -, -, -, -, -, -, -, e0, e1⟩ := idx t
  refine ⟨t, flush1_6 t, ?_⟩
  show i ∈ ((View.whole main_v28).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000
              omega
  | ⟨1, _⟩ => show win1_6.index t (1 : Fin 2) * 128 ≤ (i 1).val ∧ (i 1).val < win1_6.index t (1 : Fin 2) * 128 + 128
              omega

/-- AFTER THE PIPELINE the output array is any `G` whose entries are the layer's. -/
theorem final_out (c : Dev nD) (G : S50000x128.Idx → EReal)
    (hG : ∀ (r : Fin 50000) (q : Fin 128), G (ix2 r q) = layer V c r q) :
    (dat1 V c).arrAt 6 cfg1.N = G :=
  (dat1 V c).arrAt_eq_of_cover 6 G (fun t _ => flushed_out V c t G hG) cover_out

end Cert.Bridge.Mid1

end
-- ==== Proof.Mid2.lean ====
/-
  Pipeline 2: a graph-convolution layer with a residual. Each of its 25 grid points takes rows 2000·t … 2000·t + 1999
  of three arrays — the neighbour mean, the previous activations, the first projection — and the two whole weight
  matrices and the bias row, and writes the same rows of the new activations:
      max (mean·W_l + act·W_r + b, 0) + 0.2 · proj.
  Row r of the result depends on row r of the three arrays only. So point `t` writes block `t` of ANY array `G` whose
  entry (r, q) is that formula of the rows r; the 25 blocks tile the 50000 rows, so after the pipeline the array IS `G`.
-/
import proofs.«154582_j15977278341936_1_alg».proof.Proof.Gen.KernelIdeal.Frame
import proofs.«154582_j15977278341936_1_alg».proof.Proof.Payloads
import proofs.«154582_j15977278341936_1_alg».proof.Proof.Mid1
import Idealize.ShloMosaic.Lib.Pipeline.Value
import Idealize.ShloMosaic.Lib.ValueIdx

set_option maxRecDepth 16384

noncomputable section

namespace Cert.Bridge.Mid2

open Cert.KernelIdeal Cert.KernelIdeal.Gen Idealize.ShloMosaic Idealize.ShloMosaic.TcCoe Idealize.SL.Sem
open Idealize.ShloMosaic.ValueIdx
open Idealize.ShloMosaic.Pipeline (Dat)

open Cert.Bridge.Mid1 (layerOf)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the four row windows sit at block (t, 0), the weights and the bias at (0, 0). -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

theorem tlt (t : Fin cfg2.N) : t.val < 25 := lt_of_lt_of_eq t.isLt (N_2 : cfg2.N = 25)

/-- Row p of block t is row 2000·t + p of the array. -/
def row (t : Fin cfg2.N) (p : Fin 2000) : Fin 50000 := ⟨2000 * t.val + p.val, by have := tlt t; have := p.isLt; omega⟩

/-- The neighbour mean's block at point t: rows 2000·t … of the array the pipeline finds. -/
theorem mean_blk (c : Dev nD) (t : Fin cfg2.N) (p : Fin 2000) (k : Fin 128) :
    (iblk2 V c 0 t : Vec Ideal S2000x128 .f32) (ix2 p k) = (V c main_v40 : S50000x128.Idx → EReal) (ix2 (row t p) k) := by
  obtain ⟨e0, e1, -⟩ := idx t
  unfold iblk2
  rw [View.read_apply]
  show V c main_v40 _ = V c main_v40 _
  refine congrArg _ ?_
  funext a; apply Fin.ext
  match a with
  | ⟨0, _⟩ => show win2_0.index t (0 : Fin 2) * 2000 + 1 * p.val = 2000 * t.val + p.val; omega
  | ⟨1, _⟩ => show win2_0.index t (1 : Fin 2) * 128 + 1 * k.val = k.val; omega

/-- The activations' block at point t: rows 2000·t … of the array the pipeline finds. -/
theorem act_blk (c : Dev nD) (t : Fin cfg2.N) (p : Fin 2000) (k : Fin 128) :
    (iblk2 V c 1 t : Vec Ideal S2000x128 .f32) (ix2 p k) = (V c main_v28 : S50000x128.Idx → EReal) (ix2 (row t p) k) := by
  obtain ⟨-, -, e0, e1, -⟩ := idx t
  unfold iblk2
  rw [View.read_apply]
  show V c main_v28 _ = V c main_v28 _
  refine congrArg _ ?_
  funext a; apply Fin.ext
  match a with
  | ⟨0, _⟩ => show win2_1.index t (0 : Fin 2) * 2000 + 1 * p.val = 2000 * t.val + p.val; omega
  | ⟨1, _⟩ => show win2_1.index t (1 : Fin 2) * 128 + 1 * k.val = k.val; omega

/-- The first projection's block at point t: rows 2000·t … of the array the pipeline finds. -/
theorem proj_blk (c : Dev nD) (t : Fin cfg2.N) (p : Fin 2000) (k : Fin 128) :
    (iblk2 V c 5 t : Vec Ideal S2000x128 .f32) (ix2 p k) = (V c main_v14_0 : S50000x128.Idx → EReal) (ix2 (row t p) k) := by
  obtain ⟨-, -, -, -, -, -, -, -, -, -, e0, e1, -⟩ := idx t
  unfold iblk2
  rw [View.read_apply]
  show V c main_v14_0 _ = V c main_v14_0 _
  refine congrArg _ ?_
  funext a; apply Fin.ext
  match a with
  | ⟨0, _⟩ => show win2_5.index t (0 : Fin 2) * 2000 + 1 * p.val = 2000 * t.val + p.val; omega
  | ⟨1, _⟩ => show win2_5.index t (1 : Fin 2) * 128 + 1 * k.val = k.val; omega

/-- A weight window's one block is the whole matrix. -/
theorem wl_blk (c : Dev nD) (t : Fin cfg2.N) (k q : Fin 128) :
    (iblk2 V c 2 t : Vec Ideal S128x128 .f32) (ix2 k q) = (V c main_arg7 : S128x128.Idx → EReal) (ix2 k q) := by
  obtain ⟨-, -, -, -, e0, e1, -⟩ := idx t
  unfold iblk2
  rw [View.read_apply]
  show V c main_arg7 _ = V c main_arg7 _
  refine congrArg _ ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- A weight window's one block is the whole matrix. -/
theorem wr_blk (c : Dev nD) (t : Fin cfg2.N) (k q : Fin 128) :
    (iblk2 V c 3 t : Vec Ideal S128x128 .f32) (ix2 k q) = (V c main_arg8 : S128x128.Idx → EReal) (ix2 k q) := by
  obtain ⟨-, -, -, -, -, -, e0, e1, -⟩ := idx t
  unfold iblk2
  rw [View.read_apply]
  show V c main_arg8 _ = V c main_arg8 _
  refine congrArg _ ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- The bias window's one block is the whole row. -/
theorem b_blk (c : Dev nD) (t : Fin cfg2.N) (q : Fin 128) :
    (iblk2 V c 4 t : Vec Ideal S1x128 .f32) (ix2 0 q) = (V c main_v41 : S1x128.Idx → EReal) (ix2 0 q) := by
  obtain ⟨-, -, -, -, -, -, -, -, e0, e1, -⟩ := idx t
  unfold iblk2
  rw [View.read_apply]
  show V c main_v41 _ = V c main_v41 _
  refine congrArg _ ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- Where row p, lane q of the output block at point t sits in the array. -/
theorem emb_out (t : Fin cfg2.N) (p : Fin 2000) (q : Fin 128) :
    ((cfg2.win 6).blk t).view.emb (ix2 p q) = (ix2 (row t p) q : S50000x128.Idx) := by
  obtain ⟨-, -, -, -, -, -, -, -, -, -, -, -, e0, e1⟩ := idx t
  funext a; apply Fin.ext
  match a with
  | ⟨0, _⟩ => show win2_6.index t (0 : Fin 2) * 2000 + 1 * p.val = 2000 * t.val + p.val; omega
  | ⟨1, _⟩ => show win2_6.index t (1 : Fin 2) * 128 + 1 * q.val = q.val; omega

/-- The layer's entry (r, q) from the arrays the pipeline finds. -/
abbrev layer (c : Dev nD) (r : Fin 50000) (q : Fin 128) : EReal :=
  layerOf (V c main_v40) (V c main_v28) (V c main_v14_0) (V c main_arg7) (V c main_arg8) (V c main_v41) r q

/-- The payload at a block's row p is the layer's entry at the array's row 2000·t + p. -/
theorem pay_layer (c : Dev nD) (t : Fin cfg2.N) (p : Fin 2000) (q : Fin 128) :
    k2_pay1 (F := Ideal) (iblk2 V c 0 t) (iblk2 V c 1 t) (iblk2 V c 2 t) (iblk2 V c 3 t) (iblk2 V c 4 t) (iblk2 V c 5 t) (ix2 p q)
      = layer V c (row t p) q := by
  refine (Payloads.mid_pay' _ _ _ _ _ _ p q).trans ?_
  show _ = layerOf (V c main_v40) (V c main_v28) (V c main_v14_0) (V c main_arg7) (V c main_arg8) (V c main_v41) (row t p) q
  unfold layerOf
  simp only [mean_blk V c t p, act_blk V c t p, proj_blk V c t p, wl_blk V c t, wr_blk V c t, b_blk V c t q]

/-- WHAT POINT t WRITES BACK: block t of any array whose entries are the layer's. -/
theorem flushed_out (c : Dev nD) (t : Fin cfg2.N) (G : S50000x128.Idx → EReal)
    (hG : ∀ (r : Fin 50000) (q : Fin 128), G (ix2 r q) = layer V c r q) :
    (dat2 V c).flushed 6 t = ((cfg2.win 6).blk t).view.read (Elt Ideal) G := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = G (((cfg2.win 6).blk t).view.emb (ix2 p q))
  rw [emb_out t p q, hG]
  exact pay_layer V c t p q

/-- Every index of the output lies in the block of the point that owns its row: t = row / 2000. -/
theorem cover_out (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, lt_of_lt_of_eq (by omega : (i 0).val / 2000 < 25) (N_2 : cfg2.N = 25).symm⟩, rfl⟩
  obtain ⟨-, -, -, -, -, -, -, -, -, -, -, -, e0, e1⟩ := idx t
  refine ⟨t, flush2_6 t, ?_⟩
  show i ∈ ((View.whole main_v42).slice (win2_6.rect t)).set
  rw [View.set_slice_whole, Rect.mem_set_unit]
  intro a
  match a with
  | ⟨0, _⟩ => show win2_6.index t (0 : Fin 2) * 2000 ≤ (i 0).val ∧ (i 0).val < win2_6.index t (0 : Fin 2) * 2000 + 2000
              omega
  | ⟨1, _⟩ => show win2_6.index t (1 : Fin 2) * 128 ≤ (i 1).val ∧ (i 1).val < win2_6.index t (1 : Fin 2) * 128 + 128
              omega

/-- AFTER THE PIPELINE the output array is any `G` whose entries are the layer's. -/
theorem final_out (c : Dev nD) (G : S50000x128.Idx → EReal)
    (hG : ∀ (r : Fin 50000) (q : Fin 128), G (ix2 r q) = layer V c r q) :
    (dat2 V c).arrAt 6 cfg2.N = G :=
  (dat2 V c).arrAt_eq_of_cover 6 G (fun t _ => flushed_out V c t G hG) cover_out

end Cert.Bridge.Mid2

end
-- ==== Proof.Neighbours.lean ====
/-
  The neighbour mean, in its two spellings. Both programs form, for every node, the sum of a feature array over the
  node's incoming edges (a gather of the source rows followed by a scatter-add at the destinations; `edgeSum`) and the
  node's in-degree clipped below at one (`max (deg, 1)`, a scatter-add of ones). The reference DIVIDES the sum by
  the clipped degree; the kernel's program MULTIPLIES it by the reciprocal 1 / max (deg, 1), computed once. On the
  extended reals x / d = x · d⁻¹ whenever d ≠ 0, and 1 / d = 1 · d⁻¹ = d⁻¹ there too; the clipped degree is at least
  one, hence nonzero (it may be +∞: then both sides are x · 0). So the two spellings are one function, for every
  feature array and every edge list — no finiteness of the inputs is used.
-/
import proofs.«154582_j15977278341936_1_alg».proof.Proof.RefRead
import Idealize.ShloMosaic.Lib.ValueIdx
import Idealize.ShloMosaic.PureOps.Ideal
import Idealize.ShloMosaic.PureOps.IdealRules

set_option maxRecDepth 16384

noncomputable section

namespace Cert.Bridge.Neighbours

open Cert.ReferenceIdeal Cert.ReferenceIdeal.Gen Cert.ReferenceIdeal.ReadP Idealize.ShloMosaic Idealize.ShloMosaic.TcCoe

abbrev Feat := FVec Ideal S50000x128 .f32
abbrev Edges := IVec S2x800000 32

/-- The sum of `h`'s rows over each node's incoming edges: rows gathered at the (wrapped) source indices, added into
    a zero array at the destination indices. -/
def edgeSum (h : Feat) (e : Edges) : Feat :=
  Host.scatterAdd (F := Ideal) scatter_S50000x128_S800000x1_S800000x128_1_0_0_1 (val_main_v16 (F := Ideal)) (val_main_v17 (F := Ideal) e)
    (Host.gather gather_S50000x128_S800000x1_S800000x128_1_0_n_n_0_1_1128 h (val_main_v14 (F := Ideal) e))

/-- The reference's spelling: the edge sum divided by the clipped in-degree, broadcast along the features. -/
def meanDiv (h : Feat) (e : Edges) : Feat := Host.divf (F := Ideal) (edgeSum h e) (val_main_v26 (F := Ideal) e)

/-- The reciprocal of the clipped in-degree, as a column. -/
def recipDeg (e : Edges) : FVec Ideal S50000x1 .f32 :=
  broadcastInDim S50000x1 ![0] bcast_S50000_S50000x1_0 (Host.divf (F := Ideal) (val_main_v23 (F := Ideal)) (val_main_v24 (F := Ideal) e))

/-- The kernel program's spelling: the edge sum times the reciprocal column, broadcast along the features. -/
def meanMul (h : Feat) (e : Edges) : Feat :=
  mulf (F := Ideal) (edgeSum h e) (broadcastInDim S50000x128 ![0, 1] bcast_S50000x1_S50000x128_0_1 (recipDeg e))

/-- A column broadcast along the features, read at an index. -/
theorem bcast_col_apply (y : FVec Ideal S50000x1 .f32) (i : S50000x128.Idx) :
    broadcastInDim S50000x128 ![0, 1] bcast_S50000x1_S50000x128_0_1 y i = y (idx_main_v26 i) :=
  broadcastInDim_apply _ bcast_S50000x1_S50000x128_0_1 y i (idx_main_v26 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- A vector made a column, read at an index. -/
theorem col_apply (y : FVec Ideal S50000 .f32) (i : S50000x1.Idx) :
    broadcastInDim S50000x1 ![0] bcast_S50000_S50000x1_0 y i = y (idx_main_v25 i) :=
  broadcastInDim_apply _ bcast_S50000_S50000x1_0 y i (idx_main_v25 i) (fun a => match a with
    | ⟨0, _⟩ => by show (i 0).val = if (50000 : Nat) = 1 then 0 else (i 0).val; rw [if_neg (by decide)])

/-- On the extended reals, dividing by a nonzero d is multiplying by 1 / d. -/
theorem mul_recip (x d : EReal) (hd : d ≠ 0) : x * Ideal.div 1 d = Ideal.div x d := by
  unfold Ideal.div
  rw [if_neg hd, if_neg hd, one_mul]

/-- A maximum with one is not zero. -/
theorem max_one_ne_zero (x : EReal) : max x 1 ≠ 0 :=
  ne_of_gt (lt_of_lt_of_le zero_lt_one (le_max_right x 1))

/-- The splat of the word 1.0 is the extended real 1. -/
theorem one_word : Ideal.ofBits .f32 0x3F800000#32 = (1 : EReal) :=
  IdealRules.sign_bit.ideal_onePat .f32

/-- Products and host quotients of arrays are taken entry by entry. -/
theorem mulf_at (a b : FVec Ideal S50000x128 .f32) (i : S50000x128.Idx) : mulf (F := Ideal) a b i = a i * b i := rfl
theorem hdivf_at (a b : FVec Ideal S50000x128 .f32) (i : S50000x128.Idx) : Host.divf (F := Ideal) a b i = Ideal.div (a i) (b i) := rfl
theorem hdivf_at1 (a b : FVec Ideal S50000 .f32) (i : S50000.Idx) : Host.divf (F := Ideal) a b i = Ideal.div (a i) (b i) := rfl

/-- THE LAW: the kernel program's neighbour mean is the reference's. -/
theorem meanMul_eq_meanDiv (h : Feat) (e : Edges) : meanMul h e = meanDiv h e := by
  funext i
  unfold meanMul meanDiv recipDeg
  generalize edgeSum h e = S
  rw [mulf_at, hdivf_at, bcast_col_apply, col_apply, hdivf_at1, val_main_v26_apply, val_main_v25_apply, val_main_v24_apply]
  generalize val_main_v22 (F := Ideal) e (idx_main_v25 (idx_main_v26 i)) = dg
  have h1 : val_main_v23 (F := Ideal) (idx_main_v25 (idx_main_v26 i)) = (1 : EReal) := by
    rw [val_main_v23_apply, val_main_cst_3_apply]; exact one_word
  rw [h1, Ideal.maximumf_def]
  exact mul_recip _ _ (max_one_ne_zero dg)

/-! ## The same functions over explicit source and destination vectors

A stretch of host operations, read over the contents it is entered from, presents the neighbour mean as a function of
three buffers — the source vector, the destination vector and, in the kernel's program, the reciprocal column — rather
than of the edge list. These are those functions; each is the edge-list form at the edge list's two rows. -/

abbrev IdxVec := IVec S800000 32
abbrev Col := FVec Ideal S50000x1 .f32

/-- The edge sum from a source vector (negative entries wrapped by 50000) and a destination vector. -/
def edgeSumRaw (h : Feat) (src dst : IdxVec) : Feat :=
  Host.scatterAdd (F := Ideal) scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The in-degree clipped below at one, from the destination vector. -/
def clipDegRaw (dst : IdxVec) : FVec Ideal S50000 .f32 :=
  maximumf (F := Ideal)
    (Host.scatterAdd (F := Ideal) scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- The reciprocal column of the clipped in-degree. -/
def recipDegRaw (dst : IdxVec) : Col :=
  broadcastInDim S50000x1 ![0] bcast_S50000_S50000x1_0
    (Host.divf (F := Ideal) (broadcastInDim S50000 ![] bcast_S_S50000 (constant S_ .f32 0x3F800000#32)) (clipDegRaw dst))

/-- The kernel program's spelling. -/
def meanMulRaw (h : Feat) (src dst : IdxVec) (rcol : Col) : Feat :=
  mulf (F := Ideal) (edgeSumRaw h src dst) (broadcastInDim S50000x128 ![0, 1] bcast_S50000x1_S50000x128_0_1 rcol)

/-- The reference's spelling. -/
def meanDivRaw (h : Feat) (src dst : IdxVec) : Feat :=
  Host.divf (F := Ideal) (edgeSumRaw h src dst)
    (broadcastInDim S50000x128 ![0, 1] bcast_S50000x1_S50000x128_0_1
      (broadcastInDim S50000x1 ![0] bcast_S50000_S50000x1_0 (clipDegRaw dst)))

theorem edgeSumRaw_eq (h : Feat) (e : Edges) : edgeSumRaw h (val_main_v1 (F := Ideal) e) (val_main_v3 (F := Ideal) e) = edgeSum h e := rfl
theorem clipDegRaw_eq (e : Edges) : clipDegRaw (val_main_v3 (F := Ideal) e) = val_main_v24 (F := Ideal) e := rfl
theorem recipDegRaw_eq (e : Edges) : recipDegRaw (val_main_v3 (F := Ideal) e) = recipDeg e := rfl
theorem meanMulRaw_eq (h : Feat) (e : Edges) :
    meanMulRaw h (val_main_v1 (F := Ideal) e) (val_main_v3 (F := Ideal) e) (recipDeg e) = meanMul h e := rfl
theorem meanDivRaw_eq (h : Feat) (e : Edges) :
    meanDivRaw h (val_main_v1 (F := Ideal) e) (val_main_v3 (F := Ideal) e) = meanDiv h e := rfl

/-- So the kernel program's raw spelling, at the edge list's rows and the edge list's reciprocal column, is the
    reference's mean. -/
theorem meanMulRaw_eq_meanDiv (h : Feat) (e : Edges) :
    meanMulRaw h (val_main_v1 (F := Ideal) e) (val_main_v3 (F := Ideal) e) (recipDegRaw (val_main_v3 (F := Ideal) e)) = meanDiv h e := by
  rw [recipDegRaw_eq, meanMulRaw_eq, meanMul_eq_meanDiv]

/-! ## The reference's three neighbour stages are the mean of the layer's input -/

variable (x0 : Feat) (x1 : Edges) (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))

theorem stage27 : val_main_v27 (F := Ideal) x0 x1 x2 x3 = meanDiv (val_main_v8 (F := Ideal) x0 x2 x3) x1 := rfl
theorem stage56 : val_main_v56 (F := Ideal) x0 x1 x2 x3 x4 x5 x6 = meanDiv (val_main_v37 (F := Ideal) x0 x1 x2 x3 x4 x5 x6) x1 := rfl
theorem stage85 : val_main_v85 (F := Ideal) x0 x1 x2 x3 x4 x5 x6 x7 x8 x9
    = meanDiv (val_main_v66 (F := Ideal) x0 x1 x2 x3 x4 x5 x6 x7 x8 x9) x1 := rfl

end Cert.Bridge.Neighbours

end
-- ==== Proof.Stretch.lean ====
/-
  The kernel program's four stretches of host operations, each read over the buffer contents it is entered from.
  Stretch 0 splits the edge list into its source and destination vectors, counts each node's incoming edges, forms the
  reciprocal of that count clipped below at one (as a column), and lays the first bias out as a row. Stretches 1, 2 and 3
  each form the neighbour mean of the activations the previous pipeline left (the edge sum times the reciprocal column)
  and lay the next bias out as a row. No stretch writes an argument or an earlier stretch's or pipeline's result, so
  everything else it finds it leaves.
-/
import proofs.«154582_j15977278341936_1_alg».proof.Proof.Gen.KernelIdeal.Frame
import proofs.«154582_j15977278341936_1_alg».proof.Proof.Neighbours
import Idealize.ShloMosaic.Lib.StableHlo.Run

set_option maxRecDepth 16384
set_option maxHeartbeats 4000000

noncomputable section

namespace Cert.Bridge.Stretch

open Cert.KernelIdeal Cert.KernelIdeal.Gen Idealize.ShloMosaic Idealize.ShloMosaic.TcCoe Idealize.SL.Sem Idealize.ShloMosaic.StableHlo

variable (W : Valuation τ sig (Elt Ideal))

/-- Stretch 0: the source vector is the edge list's first row, -/
theorem s0_src : after (hostOps0 (F := Ideal)) W (Proc.devRef .tc main_v1)
    = Cert.ReferenceIdeal.ReadP.val_main_v1 (F := Ideal) (W (Proc.devRef .tc main_arg1)) := by
  after_results_simp
  rfl

/-- the destination vector its second row, -/
theorem s0_dst : after (hostOps0 (F := Ideal)) W (Proc.devRef .tc main_v3)
    = Cert.ReferenceIdeal.ReadP.val_main_v3 (F := Ideal) (W (Proc.devRef .tc main_arg1)) := by
  after_results_simp
  rfl

/-- the reciprocal column is that of the destination vector's clipped in-degrees, -/
theorem s0_rcol : after (hostOps0 (F := Ideal)) W (Proc.devRef .tc main_v12)
    = Cert.Bridge.Neighbours.recipDegRaw (Cert.ReferenceIdeal.ReadP.val_main_v3 (F := Ideal) (W (Proc.devRef .tc main_arg1))) := by
  after_results_simp
  rfl

/-- and the first bias is laid out as a row. -/
theorem s0_bias : after (hostOps0 (F := Ideal)) W (Proc.devRef .tc main_v13)
    = (shapeCast S1x128 (W (Proc.devRef .tc main_arg3)) shapeCasts_S128_S1x128 : S1x128.Idx → EReal) := by
  after_results_simp
  rfl

/-- The buffers stretch 0 writes. -/
abbrev wr0 : List (Ref sig .tc) := [main_v0, main_v1, main_v2, main_v3, main_cst, main_v4, main_cst_0, main_v5, main_v6, main_v7, main_cst_1, main_v8, main_v9, main_cst_2, main_v10, main_v11, main_v12, main_v13]
theorem wr0_sub : (hostOps0 (F := Ideal)).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Stretch 0 leaves every other buffer as it found it. -/
theorem s0_keep (r : Ref sig .tc) (h : r ∉ wr0) : after (hostOps0 (F := Ideal)) W (Proc.devRef .tc r) = W (Proc.devRef .tc r) :=
  after_of_writes_sub hostOps0 W wr0_sub h

/-- Stretch 1 forms the neighbour mean of the activations it finds (the kernel program's spelling: the edge sum times
    the reciprocal column), from the source, destination and reciprocal-column buffers an earlier stretch left. -/
theorem s1_mean : after (hostOps1 (F := Ideal)) W (Proc.devRef .tc main_v26)
    = Cert.Bridge.Neighbours.meanMulRaw (W (Proc.devRef .tc main_v14_1)) (W (Proc.devRef .tc main_v1)) (W (Proc.devRef .tc main_v3)) (W (Proc.devRef .tc main_v12)) := by
  after_results_simp
  rfl

/-- … and lays the layer's bias out as a row. -/
theorem s1_bias : after (hostOps1 (F := Ideal)) W (Proc.devRef .tc main_v27)
    = (shapeCast S1x128 (W (Proc.devRef .tc main_arg6)) shapeCasts_S128_S1x128 : S1x128.Idx → EReal) := by
  after_results_simp
  rfl

/-- The buffers stretch 1 writes. -/
abbrev wr1 : List (Ref sig .tc) := [main_c, main_v15, main_v16, main_c_3, main_v17, main_v18, main_v19, main_v20, main_v21, main_cst_4, main_v22, main_v23, main_v24, main_v25, main_v26, main_v27]
theorem wr1_sub : (hostOps1 (F := Ideal)).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Stretch 1 leaves every other buffer as it found it. -/
theorem s1_keep (r : Ref sig .tc) (h : r ∉ wr1) : after (hostOps1 (F := Ideal)) W (Proc.devRef .tc r) = W (Proc.devRef .tc r) :=
  after_of_writes_sub hostOps1 W wr1_sub h

/-- Stretch 2 forms the neighbour mean of the activations it finds (the kernel program's spelling: the edge sum times
    the reciprocal column), from the source, destination and reciprocal-column buffers an earlier stretch left. -/
theorem s2_mean : after (hostOps2 (F := Ideal)) W (Proc.devRef .tc main_v40)
    = Cert.Bridge.Neighbours.meanMulRaw (W (Proc.devRef .tc main_v28)) (W (Proc.devRef .tc main_v1)) (W (Proc.devRef .tc main_v3)) (W (Proc.devRef .tc main_v12)) := by
  after_results_simp
  rfl

/-- … and lays the layer's bias out as a row. -/
theorem s2_bias : after (hostOps2 (F := Ideal)) W (Proc.devRef .tc main_v41)
    = (shapeCast S1x128 (W (Proc.devRef .tc main_arg9)) shapeCasts_S128_S1x128 : S1x128.Idx → EReal) := by
  after_results_simp
  rfl

/-- The buffers stretch 2 writes. -/
abbrev wr2 : List (Ref sig .tc) := [main_c_5, main_v29, main_v30, main_c_6, main_v31, main_v32, main_v33, main_v34, main_v35, main_cst_7, main_v36, main_v37, main_v38, main_v39, main_v40, main_v41]
theorem wr2_sub : (hostOps2 (F := Ideal)).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Stretch 2 leaves every other buffer as it found it. -/
theorem s2_keep (r : Ref sig .tc) (h : r ∉ wr2) : after (hostOps2 (F := Ideal)) W (Proc.devRef .tc r) = W (Proc.devRef .tc r) :=
  after_of_writes_sub hostOps2 W wr2_sub h

/-- Stretch 3 forms the neighbour mean of the activations it finds (the kernel program's spelling: the edge sum times
    the reciprocal column), from the source, destination and reciprocal-column buffers an earlier stretch left. -/
theorem s3_mean : after (hostOps3 (F := Ideal)) W (Proc.devRef .tc main_v54)
    = Cert.Bridge.Neighbours.meanMulRaw (W (Proc.devRef .tc main_v42)) (W (Proc.devRef .tc main_v1)) (W (Proc.devRef .tc main_v3)) (W (Proc.devRef .tc main_v12)) := by
  after_results_simp
  rfl

/-- … and lays the layer's bias out as a row. -/
theorem s3_bias : after (hostOps3 (F := Ideal)) W (Proc.devRef .tc main_v55)
    = (shapeCast S1x64 (W (Proc.devRef .tc main_arg12)) shapeCasts_S64_S1x64 : S1x64.Idx → EReal) := by
  after_results_simp
  rfl

/-- The buffers stretch 3 writes. -/
abbrev wr3 : List (Ref sig .tc) := [main_c_8, main_v43, main_v44, main_c_9, main_v45, main_v46, main_v47, main_v48, main_v49, main_cst_10, main_v50, main_v51, main_v52, main_v53, main_v54, main_v55]
theorem wr3_sub : (hostOps3 (F := Ideal)).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Stretch 3 leaves every other buffer as it found it. -/
theorem s3_keep (r : Ref sig .tc) (h : r ∉ wr3) : after (hostOps3 (F := Ideal)) W (Proc.devRef .tc r) = W (Proc.devRef .tc r) :=
  after_of_writes_sub hostOps3 W wr3_sub h

end Cert.Bridge.Stretch

end
-- ==== Proof.RefRows.lean ====
/- The reference program's stages read row by row at the ideal instance.

   Each layer's output stage at the entry (r, q) is written over the previous layer's stages at row r:
   a dense layer is a sum over the 128 input features plus a bias, the rectifier is a maximum with the
   zero word, and the skip connection adds the constant word (0.2) times the input projection. The
   neighbour means (the divided scatter sums) are left as the stages they are. -/
import proofs.«154582_j15977278341936_1_alg».proof.Proof.RefRead
import Idealize.ShloMosaic.Lib.Pipeline.Value
import Idealize.ShloMosaic.Lib.ValueIdx
import Idealize.ShloMosaic.PureOps.Ideal.Laws

noncomputable section

namespace Cert.Bridge.RefRows

open Cert.ReferenceIdeal Cert.ReferenceIdeal.ReadP Idealize.ShloMosaic Idealize.ShloMosaic.ValueIdx
open scoped BigOperators

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))
  (x4 x5 : (⟨S128x128, .f32⟩ : BufTy).Contents (Elt Ideal))
  (x6 : (⟨S128, .f32⟩ : BufTy).Contents (Elt Ideal))
  (x7 x8 : (⟨S128x128, .f32⟩ : BufTy).Contents (Elt Ideal))
  (x9 : (⟨S128, .f32⟩ : BufTy).Contents (Elt Ideal))
  (x10 x11 : (⟨S128x64, .f32⟩ : BufTy).Contents (Elt Ideal))
  (x12 : (⟨S64, .f32⟩ : BufTy).Contents (Elt Ideal))

/-! ## The input projection and the first activation -/

/-- The input projection at `(r, q)`: row `r` of the input times column `q` of the weight, plus the bias. -/
theorem inp_row (r : Fin 50000) (q : Fin 128) :
    val_main_v7 (F := Ideal) x0 x2 x3 (ix2 r q)
      = (∑ k : Fin 128, x0 (ix2 r k) * x2 (ix2 k q)) + x3 (ix1 q) := by
  have el : ∀ k : Fin 128, lidx_main_v4 (ix2 r q) k = ix2 r k := fun k => funext fun a => Fin.ext (by match a with | ⟨0, _⟩ => rfl | ⟨1, _⟩ => rfl)
  have er : ∀ k : Fin 128, ridx_main_v4 (ix2 r q) k = ix2 k q := fun k => funext fun a => Fin.ext (by match a with | ⟨0, _⟩ => rfl | ⟨1, _⟩ => rfl)
  have eb : idx_main_v5 (idx_main_v6 (ix2 r q)) = ix1 q := funext fun a => Fin.ext (by match a with | ⟨0, _⟩ => rfl)
  rw [val_main_v7_apply, val_main_v4_apply, val_main_v6_apply, val_main_v5_apply]
  simp only [el, er, eb, Ideal.addf_def]

/-- The first activation is the rectified input projection. -/
theorem h0_row (r : Fin 50000) (q : Fin 128) :
    val_main_v8 (F := Ideal) x0 x2 x3 (ix2 r q)
      = max (val_main_v7 (F := Ideal) x0 x2 x3 (ix2 r q)) (Ideal.ofBits .f32 0x00000000#32) := by
  rw [val_main_v8_apply, val_main_call0_v0_apply, val_main_call0_cst_apply]
  simp only [Ideal.maximumf_def, Ideal.ofBits_def]

/-! ## The two hidden layers -/

/-- The second activation at `(r, q)`: the neighbour mean's row and the first activation's row through their
    weights, plus the bias, rectified, plus 0.2 times the input projection. -/
theorem h1_row (r : Fin 50000) (q : Fin 128) :
    val_main_v37 (F := Ideal) x0 x1 x2 x3 x4 x5 x6 (ix2 r q)
      = max (((∑ k : Fin 128, val_main_v27 (F := Ideal) x0 x1 x2 x3 (ix2 r k) * x4 (ix2 k q))
              + (∑ k : Fin 128, val_main_v8 (F := Ideal) x0 x2 x3 (ix2 r k) * x5 (ix2 k q)))
             + x6 (ix1 q)) (Ideal.ofBits .f32 0x00000000#32)
        + Ideal.ofBits .f32 0x3E4CCCCD#32 * val_main_v7 (F := Ideal) x0 x2 x3 (ix2 r q) := by
  have el28 : ∀ k : Fin 128, lidx_main_v28 (ix2 r q) k = ix2 r k := fun k => funext fun a => Fin.ext (by match a with | ⟨0, _⟩ => rfl | ⟨1, _⟩ => rfl)
  have er28 : ∀ k : Fin 128, ridx_main_v28 (ix2 r q) k = ix2 k q := fun k => funext fun a => Fin.ext (by match a with | ⟨0, _⟩ => rfl | ⟨1, _⟩ => rfl)
  have el29 : ∀ k : Fin 128, lidx_main_v29 (ix2 r q) k = ix2 r k := fun k => funext fun a => Fin.ext (by match a with | ⟨0, _⟩ => rfl | ⟨1, _⟩ => rfl)
  have er29 : ∀ k : Fin 128, ridx_main_v29 (ix2 r q) k = ix2 k q := fun k => funext fun a => Fin.ext (by match a with | ⟨0, _⟩ => rfl | ⟨1, _⟩ => rfl)
  have eb : idx_main_v31 (idx_main_v32 (ix2 r q)) = ix1 q := funext fun a => Fin.ext (by match a with | ⟨0, _⟩ => rfl)
  rw [val_main_v37_apply, val_main_v34_apply, val_main_v33_apply, val_main_v30_apply, val_main_v28_apply,
    val_main_v29_apply, val_main_v32_apply, val_main_v31_apply, val_main_call1_v0_apply, val_main_call1_cst_apply,
    val_main_v36_apply, val_main_v35_apply, val_main_cst_4_apply]
  simp only [el28, er28, el29, er29, eb, Ideal.addf_def, Ideal.maximumf_def, Ideal.mulf_def, Ideal.ofBits_def]

/-- The third activation at `(r, q)`: the same layer over the second activation and its neighbour mean. -/
theorem h2_row (r : Fin 50000) (q : Fin 128) :
    val_main_v66 (F := Ideal) x0 x1 x2 x3 x4 x5 x6 x7 x8 x9 (ix2 r q)
      = max (((∑ k : Fin 128, val_main_v56 (F := Ideal) x0 x1 x2 x3 x4 x5 x6 (ix2 r k) * x7 (ix2 k q))
              + (∑ k : Fin 128, val_main_v37 (F := Ideal) x0 x1 x2 x3 x4 x5 x6 (ix2 r k) * x8 (ix2 k q)))
             + x9 (ix1 q)) (Ideal.ofBits .f32 0x00000000#32)
        + Ideal.ofBits .f32 0x3E4CCCCD#32 * val_main_v7 (F := Ideal) x0 x2 x3 (ix2 r q) := by
  have el57 : ∀ k : Fin 128, lidx_main_v57 (ix2 r q) k = ix2 r k := fun k => funext fun a => Fin.ext (by match a with | ⟨0, _⟩ => rfl | ⟨1, _⟩ => rfl)
  have er57 : ∀ k : Fin 128, ridx_main_v57 (ix2 r q) k = ix2 k q := fun k => funext fun a => Fin.ext (by match a with | ⟨0, _⟩ => rfl | ⟨1, _⟩ => rfl)
  have el58 : ∀ k : Fin 128, lidx_main_v58 (ix2 r q) k = ix2 r k := fun k => funext fun a => Fin.ext (by match a with | ⟨0, _⟩ => rfl | ⟨1, _⟩ => rfl)
  have er58 : ∀ k : Fin 128, ridx_main_v58 (ix2 r q) k = ix2 k q := fun k => funext fun a => Fin.ext (by match a with | ⟨0, _⟩ => rfl | ⟨1, _⟩ => rfl)
  have eb : idx_main_v60 (idx_main_v61 (ix2 r q)) = ix1 q := funext fun a => Fin.ext (by match a with | ⟨0, _⟩ => rfl)
  rw [val_main_v66_apply, val_main_v63_apply, val_main_v62_apply, val_main_v59_apply, val_main_v57_apply,
    val_main_v58_apply, val_main_v61_apply, val_main_v60_apply, val_main_call2_v0_apply, val_main_call2_cst_apply,
    val_main_v65_apply, val_main_v64_apply, val_main_cst_11_apply]
  simp only [el57, er57, el58, er58, eb, Ideal.addf_def, Ideal.maximumf_def, Ideal.mulf_def, Ideal.ofBits_def]

end Cert.Bridge.RefRows

end
-- ==== Proof.KValue.lean ====
/-
  What the idealized kernel's program leaves in its result array, as a function of the thirteen arguments. The run is a
  chain of eight segments; this module walks it boundary by boundary. At each boundary a few buffers matter — the source
  and destination vectors, the reciprocal-degree column, the first projection, the current activations, their neighbour
  mean, the bias rows and the weights still to be used — and each is identified with a function of the arguments:
  the projection and the activations with the reference's own stages (the reference program's values read as functions
  of its arguments), the neighbour means with the reference's divided means through the one law of the extended reals
  that joins the two spellings (multiplying by 1 / max (deg, 1) is dividing by max (deg, 1)). A pipeline's output array is
  identified by reading the reference's stage row by row: row r of the stage is the pipeline's formula of row r of its
  inputs. At the last boundary the result array is the reference's last stage.
-/
import proofs.«154582_j15977278341936_1_alg».proof.Proof.KernelRun
import proofs.«154582_j15977278341936_1_alg».proof.Proof.Proj
import proofs.«154582_j15977278341936_1_alg».proof.Proof.Mid1
import proofs.«154582_j15977278341936_1_alg».proof.Proof.Mid2
import proofs.«154582_j15977278341936_1_alg».proof.Proof.Stretch
import proofs.«154582_j15977278341936_1_alg».proof.Proof.Neighbours
import proofs.«154582_j15977278341936_1_alg».proof.Proof.RefRows
import Idealize.ShloMosaic.Lib.ValueLayout

set_option maxRecDepth 16384

noncomputable section

namespace Cert.Bridge.KValue

open Cert.KernelIdeal Cert.KernelIdeal.Gen Idealize.ShloMosaic Idealize.ShloMosaic.TcCoe Idealize.SL.Sem
open Idealize.ShloMosaic.ValueIdx
open Cert.ReferenceIdeal.ReadP (val_main_v1 val_main_v3 val_main_v7 val_main_v8 val_main_v27 val_main_v37 val_main_v56 val_main_v66 val_main_v85 val_main_v92)
open Cert.Bridge.Neighbours (recipDegRaw meanMulRaw meanDiv)

variable (m : (ℓ : Loc nD τ sig) → Buf (Elt Ideal) ℓ) (ρ : Dev nD → PrngReg) (c : Dev nD)

/-- A bias laid out as a row, read at lane q. -/
theorem bias_row128 (x : S128.Idx → EReal) (q : Fin 128) :
    (shapeCast S1x128 x shapeCasts_S128_S1x128 : S1x128.Idx → EReal) (ix2 0 q) = x (ix1 q) :=
  shapeCast_a_1a_apply x shapeCasts_S128_S1x128 0 q
theorem bias_row64 (x : S64.Idx → EReal) (q : Fin 64) :
    (shapeCast S1x64 x shapeCasts_S64_S1x64 : S1x64.Idx → EReal) (ix2 0 q) = x (ix1 q) :=
  shapeCast_a_1a_apply x shapeCasts_S64_S1x64 0 q

/-! ## Boundary 1: after the first stretch of host operations -/

theorem w1_src : W1 m ρ c (Proc.devRef .tc main_v1) = val_main_v1 (F := Ideal) (m ((c.tc : Thread nD τ).loc main_arg1)) := Stretch.s0_src (W0 m ρ c)
theorem w1_dst : W1 m ρ c (Proc.devRef .tc main_v3) = val_main_v3 (F := Ideal) (m ((c.tc : Thread nD τ).loc main_arg1)) := Stretch.s0_dst (W0 m ρ c)
theorem w1_rcol : W1 m ρ c (Proc.devRef .tc main_v12) = recipDegRaw (val_main_v3 (F := Ideal) (m ((c.tc : Thread nD τ).loc main_arg1))) := Stretch.s0_rcol (W0 m ρ c)
theorem w1_bias : W1 m ρ c (Proc.devRef .tc main_v13) = (shapeCast S1x128 (m ((c.tc : Thread nD τ).loc main_arg3)) shapeCasts_S128_S1x128 : S1x128.Idx → EReal) :=
  Stretch.s0_bias (W0 m ρ c)
theorem w1_arg0 : W1 m ρ c (Proc.devRef .tc main_arg0) = (m ((c.tc : Thread nD τ).loc main_arg0)) := Stretch.s0_keep (W0 m ρ c) main_arg0 (by decide)
theorem w1_arg2 : W1 m ρ c (Proc.devRef .tc main_arg2) = (m ((c.tc : Thread nD τ).loc main_arg2)) := Stretch.s0_keep (W0 m ρ c) main_arg2 (by decide)
theorem w1_arg4 : W1 m ρ c (Proc.devRef .tc main_arg4) = (m ((c.tc : Thread nD τ).loc main_arg4)) := Stretch.s0_keep (W0 m ρ c) main_arg4 (by decide)
theorem w1_arg5 : W1 m ρ c (Proc.devRef .tc main_arg5) = (m ((c.tc : Thread nD τ).loc main_arg5)) := Stretch.s0_keep (W0 m ρ c) main_arg5 (by decide)
theorem w1_arg6 : W1 m ρ c (Proc.devRef .tc main_arg6) = (m ((c.tc : Thread nD τ).loc main_arg6)) := Stretch.s0_keep (W0 m ρ c) main_arg6 (by decide)
theorem w1_arg7 : W1 m ρ c (Proc.devRef .tc main_arg7) = (m ((c.tc : Thread nD τ).loc main_arg7)) := Stretch.s0_keep (W0 m ρ c) main_arg7 (by decide)
theorem w1_arg8 : W1 m ρ c (Proc.devRef .tc main_arg8) = (m ((c.tc : Thread nD τ).loc main_arg8)) := Stretch.s0_keep (W0 m ρ c) main_arg8 (by decide)
theorem w1_arg9 : W1 m ρ c (Proc.devRef .tc main_arg9) = (m ((c.tc : Thread nD τ).loc main_arg9)) := Stretch.s0_keep (W0 m ρ c) main_arg9 (by decide)
theorem w1_arg10 : W1 m ρ c (Proc.devRef .tc main_arg10) = (m ((c.tc : Thread nD τ).loc main_arg10)) := Stretch.s0_keep (W0 m ρ c) main_arg10 (by decide)
theorem w1_arg11 : W1 m ρ c (Proc.devRef .tc main_arg11) = (m ((c.tc : Thread nD τ).loc main_arg11)) := Stretch.s0_keep (W0 m ρ c) main_arg11 (by decide)
theorem w1_arg12 : W1 m ρ c (Proc.devRef .tc main_arg12) = (m ((c.tc : Thread nD τ).loc main_arg12)) := Stretch.s0_keep (W0 m ρ c) main_arg12 (by decide)

/-! ## Boundary 2: after the input projection -/

/-- The first projection is the reference's affine stage. -/
theorem w2_proj : W2 m ρ c (Proc.devRef .tc main_v14_0) = val_main_v7 (F := Ideal) (m ((c.tc : Thread nD τ).loc main_arg0)) (m ((c.tc : Thread nD τ).loc main_arg2)) (m ((c.tc : Thread nD τ).loc main_arg3)) := by
  refine (W2_arr m ρ c 3).trans ?_
  refine Proj.final_inp (V1 m ρ) c _ (fun r q => ?_)
  show _ = Proj.affineOf (W1 m ρ c (Proc.devRef .tc main_arg0)) (W1 m ρ c (Proc.devRef .tc main_arg2)) (W1 m ρ c (Proc.devRef .tc main_v13)) r q
  rw [w1_arg0, w1_arg2, w1_bias]
  unfold Proj.affineOf
  rw [bias_row128]
  exact RefRows.inp_row _ _ _ r q

/-- The first activations are the reference's clipped stage. -/
theorem w2_act : W2 m ρ c (Proc.devRef .tc main_v14_1) = val_main_v8 (F := Ideal) (m ((c.tc : Thread nD τ).loc main_arg0)) (m ((c.tc : Thread nD τ).loc main_arg2)) (m ((c.tc : Thread nD τ).loc main_arg3)) := by
  refine (W2_arr m ρ c 4).trans ?_
  refine Proj.final_act (V1 m ρ) c _ (fun r q => ?_)
  show _ = max (Proj.affineOf (W1 m ρ c (Proc.devRef .tc main_arg0)) (W1 m ρ c (Proc.devRef .tc main_arg2)) (W1 m ρ c (Proc.devRef .tc main_v13)) r q) _
  rw [w1_arg0, w1_arg2, w1_bias]
  unfold Proj.affineOf
  rw [bias_row128, ← RefRows.inp_row]
  exact RefRows.h0_row _ _ _ r q

theorem w2_src : W2 m ρ c (Proc.devRef .tc main_v1) = val_main_v1 (F := Ideal) (m ((c.tc : Thread nD τ).loc main_arg1)) := (W2_of_ne m ρ c main_v1 (by decide)).trans (w1_src m ρ c)
theorem w2_dst : W2 m ρ c (Proc.devRef .tc main_v3) = val_main_v3 (F := Ideal) (m ((c.tc : Thread nD τ).loc main_arg1)) := (W2_of_ne m ρ c main_v3 (by decide)).trans (w1_dst m ρ c)
theorem w2_rcol : W2 m ρ c (Proc.devRef .tc main_v12) = recipDegRaw (val_main_v3 (F := Ideal) (m ((c.tc : Thread nD τ).loc main_arg1))) := (W2_of_ne m ρ c main_v12 (by decide)).trans (w1_rcol m ρ c)
theorem w2_arg4 : W2 m ρ c (Proc.devRef .tc main_arg4) = (m ((c.tc : Thread nD τ).loc main_arg4)) := (W2_of_ne m ρ c main_arg4 (by decide)).trans (w1_arg4 m ρ c)
theorem w2_arg5 : W2 m ρ c (Proc.devRef .tc main_arg5) = (m ((c.tc : Thread nD τ).loc main_arg5)) := (W2_of_ne m ρ c main_arg5 (by decide)).trans (w1_arg5 m ρ c)
theorem w2_arg6 : W2 m ρ c (Proc.devRef .tc main_arg6) = (m ((c.tc : Thread nD τ).loc main_arg6)) := (W2_of_ne m ρ c main_arg6 (by decide)).trans (w1_arg6 m ρ c)
theorem w2_arg7 : W2 m ρ c (Proc.devRef .tc main_arg7) = (m ((c.tc : Thread nD τ).loc main_arg7)) := (W2_of_ne m ρ c main_arg7 (by decide)).trans (w1_arg7 m ρ c)
theorem w2_arg8 : W2 m ρ c (Proc.devRef .tc main_arg8) = (m ((c.tc : Thread nD τ).loc main_arg8)) := (W2_of_ne m ρ c main_arg8 (by decide)).trans (w1_arg8 m ρ c)
theorem w2_arg9 : W2 m ρ c (Proc.devRef .tc main_arg9) = (m ((c.tc : Thread nD τ).loc main_arg9)) := (W2_of_ne m ρ c main_arg9 (by decide)).trans (w1_arg9 m ρ c)
theorem w2_arg10 : W2 m ρ c (Proc.devRef .tc main_arg10) = (m ((c.tc : Thread nD τ).loc main_arg10)) := (W2_of_ne m ρ c main_arg10 (by decide)).trans (w1_arg10 m ρ c)
theorem w2_arg11 : W2 m ρ c (Proc.devRef .tc main_arg11) = (m ((c.tc : Thread nD τ).loc main_arg11)) := (W2_of_ne m ρ c main_arg11 (by decide)).trans (w1_arg11 m ρ c)
theorem w2_arg12 : W2 m ρ c (Proc.devRef .tc main_arg12) = (m ((c.tc : Thread nD τ).loc main_arg12)) := (W2_of_ne m ρ c main_arg12 (by decide)).trans (w1_arg12 m ρ c)

/-! ## Boundary 3: after the second stretch -/

/-- The first neighbour mean is the reference's divided mean. -/
theorem w3_mean : W3 m ρ c (Proc.devRef .tc main_v26) = val_main_v27 (F := Ideal) (m ((c.tc : Thread nD τ).loc main_arg0)) (m ((c.tc : Thread nD τ).loc main_arg1)) (m ((c.tc : Thread nD τ).loc main_arg2)) (m ((c.tc : Thread nD τ).loc main_arg3)) := by
  refine (Stretch.s1_mean (W2 m ρ c)).trans ?_
  rw [w2_act, w2_src, w2_dst, w2_rcol]
  exact (Neighbours.meanMulRaw_eq_meanDiv _ _).trans (Neighbours.stage27 _ _ _ _).symm

theorem w3_bias : W3 m ρ c (Proc.devRef .tc main_v27) = (shapeCast S1x128 (m ((c.tc : Thread nD τ).loc main_arg6)) shapeCasts_S128_S1x128 : S1x128.Idx → EReal) := by
  refine (Stretch.s1_bias (W2 m ρ c)).trans ?_
  rw [w2_arg6]
theorem w3_act : W3 m ρ c (Proc.devRef .tc main_v14_1) = val_main_v8 (F := Ideal) (m ((c.tc : Thread nD τ).loc main_arg0)) (m ((c.tc : Thread nD τ).loc main_arg2)) (m ((c.tc : Thread nD τ).loc main_arg3)) := (Stretch.s1_keep (W2 m ρ c) main_v14_1 (by decide)).trans (w2_act m ρ c)
theorem w3_proj : W3 m ρ c (Proc.devRef .tc main_v14_0) = val_main_v7 (F := Ideal) (m ((c.tc : Thread nD τ).loc main_arg0)) (m ((c.tc : Thread nD τ).loc main_arg2)) (m ((c.tc : Thread nD τ).loc main_arg3)) := (Stretch.s1_keep (W2 m ρ c) main_v14_0 (by decide)).trans (w2_proj m ρ c)
theorem w3_src : W3 m ρ c (Proc.devRef .tc main_v1) = val_main_v1 (F := Ideal) (m ((c.tc : Thread nD τ).loc main_arg1)) := (Stretch.s1_keep (W2 m ρ c) main_v1 (by decide)).trans (w2_src m ρ c)
theorem w3_dst : W3 m ρ c (Proc.devRef .tc main_v3) = val_main_v3 (F := Ideal) (m ((c.tc : Thread nD τ).loc main_arg1)) := (Stretch.s1_keep (W2 m ρ c) main_v3 (by decide)).trans (w2_dst m ρ c)
theorem w3_rcol : W3 m ρ c (Proc.devRef .tc main_v12) = recipDegRaw (val_main_v3 (F := Ideal) (m ((c.tc : Thread nD τ).loc main_arg1))) := (Stretch.s1_keep (W2 m ρ c) main_v12 (by decide)).trans (w2_rcol m ρ c)
theorem w3_arg4 : W3 m ρ c (Proc.devRef .tc main_arg4) = (m ((c.tc : Thread nD τ).loc main_arg4)) := (Stretch.s1_keep (W2 m ρ c) main_arg4 (by decide)).trans (w2_arg4 m ρ c)
theorem w3_arg5 : W3 m ρ c (Proc.devRef .tc main_arg5) = (m ((c.tc : Thread nD τ).loc main_arg5)) := (Stretch.s1_keep (W2 m ρ c) main_arg5 (by decide)).trans (w2_arg5 m ρ c)
theorem w3_arg7 : W3 m ρ c (Proc.devRef .tc main_arg7) = (m ((c.tc : Thread nD τ).loc main_arg7)) := (Stretch.s1_keep (W2 m ρ c) main_arg7 (by decide)).trans (w2_arg7 m ρ c)
theorem w3_arg8 : W3 m ρ c (Proc.devRef .tc main_arg8) = (m ((c.tc : Thread nD τ).loc main_arg8)) := (Stretch.s1_keep (W2 m ρ c) main_arg8 (by decide)).trans (w2_arg8 m ρ c)
theorem w3_arg9 : W3 m ρ c (Proc.devRef .tc main_arg9) = (m ((c.tc : Thread nD τ).loc main_arg9)) := (Stretch.s1_keep (W2 m ρ c) main_arg9 (by decide)).trans (w2_arg9 m ρ c)
theorem w3_arg10 : W3 m ρ c (Proc.devRef .tc main_arg10) = (m ((c.tc : Thread nD τ).loc main_arg10)) := (Stretch.s1_keep (W2 m ρ c) main_arg10 (by decide)).trans (w2_arg10 m ρ c)
theorem w3_arg11 : W3 m ρ c (Proc.devRef .tc main_arg11) = (m ((c.tc : Thread nD τ).loc main_arg11)) := (Stretch.s1_keep (W2 m ρ c) main_arg11 (by decide)).trans (w2_arg11 m ρ c)
theorem w3_arg12 : W3 m ρ c (Proc.devRef .tc main_arg12) = (m ((c.tc : Thread nD τ).loc main_arg12)) := (Stretch.s1_keep (W2 m ρ c) main_arg12 (by decide)).trans (w2_arg12 m ρ c)

/-! ## Boundary 4: after the first graph-convolution layer -/

/-- The second activations are the reference's stage. -/
theorem w4_act : W4 m ρ c (Proc.devRef .tc main_v28) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W4_arr m ρ c 6).trans ?_
  refine Mid1.final_out (V3 m ρ) c _ (fun r q => ?_)
  show _ = Mid1.layerOf (W3 m ρ c (Proc.devRef .tc main_v26)) (W3 m ρ c (Proc.devRef .tc main_v14_1)) (W3 m ρ c (Proc.devRef .tc main_v14_0))
    (W3 m ρ c (Proc.devRef .tc main_arg4)) (W3 m ρ c (Proc.devRef .tc main_arg5)) (W3 m ρ c (Proc.devRef .tc main_v27)) r q
  rw [w3_mean, w3_act, w3_proj, w3_arg4, w3_arg5, w3_bias]
  unfold Mid1.layerOf
  rw [bias_row128]
  exact RefRows.h1_row _ _ _ _ _ _ _ r q

/-- The first projection is an input of the layer's pipeline: it leaves it as it found it. -/
theorem w4_proj : W4 m ρ c (Proc.devRef .tc main_v14_0) = val_main_v7 (F := Ideal) (m ((c.tc : Thread nD τ).loc main_arg0)) (m ((c.tc : Thread nD τ).loc main_arg2)) (m ((c.tc : Thread nD τ).loc main_arg3)) :=
  ((W4_arr m ρ c 5).trans (((dat1 (V3 m ρ) c).arrAt_in 5 rfl _).trans (A_eq1 (V3 m ρ) c 5))).trans (w3_proj m ρ c)
theorem w4_src : W4 m ρ c (Proc.devRef .tc main_v1) = val_main_v1 (F := Ideal) (m ((c.tc : Thread nD τ).loc main_arg1)) := (W4_of_ne m ρ c main_v1 (by decide)).trans (w3_src m ρ c)
theorem w4_dst : W4 m ρ c (Proc.devRef .tc main_v3) = val_main_v3 (F := Ideal) (m ((c.tc : Thread nD τ).loc main_arg1)) := (W4_of_ne m ρ c main_v3 (by decide)).trans (w3_dst m ρ c)
theorem w4_rcol : W4 m ρ c (Proc.devRef .tc main_v12) = recipDegRaw (val_main_v3 (F := Ideal) (m ((c.tc : Thread nD τ).loc main_arg1))) := (W4_of_ne m ρ c main_v12 (by decide)).trans (w3_rcol m ρ c)
theorem w4_arg7 : W4 m ρ c (Proc.devRef .tc main_arg7) = (m ((c.tc : Thread nD τ).loc main_arg7)) := (W4_of_ne m ρ c main_arg7 (by decide)).trans (w3_arg7 m ρ c)
theorem w4_arg8 : W4 m ρ c (Proc.devRef .tc main_arg8) = (m ((c.tc : Thread nD τ).loc main_arg8)) := (W4_of_ne m ρ c main_arg8 (by decide)).trans (w3_arg8 m ρ c)
theorem w4_arg9 : W4 m ρ c (Proc.devRef .tc main_arg9) = (m ((c.tc : Thread nD τ).loc main_arg9)) := (W4_of_ne m ρ c main_arg9 (by decide)).trans (w3_arg9 m ρ c)
theorem w4_arg10 : W4 m ρ c (Proc.devRef .tc main_arg10) = (m ((c.tc : Thread nD τ).loc main_arg10)) := (W4_of_ne m ρ c main_arg10 (by decide)).trans (w3_arg10 m ρ c)
theorem w4_arg11 : W4 m ρ c (Proc.devRef .tc main_arg11) = (m ((c.tc : Thread nD τ).loc main_arg11)) := (W4_of_ne m ρ c main_arg11 (by decide)).trans (w3_arg11 m ρ c)
theorem w4_arg12 : W4 m ρ c (Proc.devRef .tc main_arg12) = (m ((c.tc : Thread nD τ).loc main_arg12)) := (W4_of_ne m ρ c main_arg12 (by decide)).trans (w3_arg12 m ρ c)

/-! ## Boundary 5: after the third stretch -/

theorem w5_mean : W5 m ρ c (Proc.devRef .tc main_v40) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (Stretch.s2_mean (W4 m ρ c)).trans ?_
  rw [w4_act, w4_src, w4_dst, w4_rcol]
  exact (Neighbours.meanMulRaw_eq_meanDiv _ _).trans (Neighbours.stage56 _ _ _ _ _ _ _).symm
theorem w5_bias : W5 m ρ c (Proc.devRef .tc main_v41) = (shapeCast S1x128 (m ((c.tc : Thread nD τ).loc main_arg9)) shapeCasts_S128_S1x128 : S1x128.Idx → EReal) := by
  refine (Stretch.s2_bias (W4 m ρ c)).trans ?_
  rw [w4_arg9]
theorem w5_act : W5 m ρ c (Proc.devRef .tc main_v28) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := (Stretch.s2_keep (W4 m ρ c) main_v28 (by decide)).trans (w4_act m ρ c)
theorem w5_proj : W5 m ρ c (Proc.devRef .tc main_v14_0) = val_main_v7 (F := Ideal) (m ((c.tc : Thread nD τ).loc main_arg0)) (m ((c.tc : Thread nD τ).loc main_arg2)) (m ((c.tc : Thread nD τ).loc main_arg3)) := (Stretch.s2_keep (W4 m ρ c) main_v14_0 (by decide)).trans (w4_proj m ρ c)
theorem w5_src : W5 m ρ c (Proc.devRef .tc main_v1) = val_main_v1 (F := Ideal) (m ((c.tc : Thread nD τ).loc main_arg1)) := (Stretch.s2_keep (W4 m ρ c) main_v1 (by decide)).trans (w4_src m ρ c)
theorem w5_dst : W5 m ρ c (Proc.devRef .tc main_v3) = val_main_v3 (F := Ideal) (m ((c.tc : Thread nD τ).loc main_arg1)) := (Stretch.s2_keep (W4 m ρ c) main_v3 (by decide)).trans (w4_dst m ρ c)
theorem w5_rcol : W5 m ρ c (Proc.devRef .tc main_v12) = recipDegRaw (val_main_v3 (F := Ideal) (m ((c.tc : Thread nD τ).loc main_arg1))) := (Stretch.s2_keep (W4 m ρ c) main_v12 (by decide)).trans (w4_rcol m ρ c)
theorem w5_arg7 : W5 m ρ c (Proc.devRef .tc main_arg7) = (m ((c.tc : Thread nD τ).loc main_arg7)) := (Stretch.s2_keep (W4 m ρ c) main_arg7 (by decide)).trans (w4_arg7 m ρ c)
theorem w5_arg8 : W5 m ρ c (Proc.devRef .tc main_arg8) = (m ((c.tc : Thread nD τ).loc main_arg8)) := (Stretch.s2_keep (W4 m ρ c) main_arg8 (by decide)).trans (w4_arg8 m ρ c)
theorem w5_arg10 : W5 m ρ c (Proc.devRef .tc main_arg10) = (m ((c.tc : Thread nD τ).loc main_arg10)) := (Stretch.s2_keep (W4 m ρ c) main_arg10 (by decide)).trans (w4_arg10 m ρ c)
theorem w5_arg11 : W5 m ρ c (Proc.devRef .tc main_arg11) = (m ((c.tc : Thread nD τ).loc main_arg11)) := (Stretch.s2_keep (W4 m ρ c) main_arg11 (by decide)).trans (w4_arg11 m ρ c)
theorem w5_arg12 : W5 m ρ c (Proc.devRef .tc main_arg12) = (m ((c.tc : Thread nD τ).loc main_arg12)) := (Stretch.s2_keep (W4 m ρ c) main_arg12 (by decide)).trans (w4_arg12 m ρ c)

/-! ## Boundary 6: after the second graph-convolution layer -/

theorem w6_act : W6 m ρ c (Proc.devRef .tc main_v42) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 6).trans ?_
  refine Mid2.final_out (V5 m ρ) c _ (fun r q => ?_)
  show _ = Mid1.layerOf (W5 m ρ c (Proc.devRef .tc main_v40)) (W5 m ρ c (Proc.devRef .tc main_v28)) (W5 m ρ c (Proc.devRef .tc main_v14_0))
    (W5 m ρ c (Proc.devRef .tc main_arg7)) (W5 m ρ c (Proc.devRef .tc main_arg8)) (W5 m ρ c (Proc.devRef .tc main_v41)) r q
  rw [w5_mean, w5_act, w5_proj, w5_arg7, w5_arg8, w5_bias]
  unfold Mid1.layerOf
  rw [bias_row128]
  exact RefRows.h2_row _ _ _ _ _ _ _ _ _ _ r q
theorem w6_src : W6 m ρ c (Proc.devRef .tc main_v1) = val_main_v1 (F := Ideal) (m ((c.tc : Thread nD τ).loc main_arg1)) := (W6_of_ne m ρ c main_v1 (by decide)).trans (w5_src m ρ c)
theorem w6_dst : W6 m ρ c (Proc.devRef .tc main_v3) = val_main_v3 (F := Ideal) (m ((c.tc : Thread nD τ).loc main_arg1)) := (W6_of_ne m ρ c main_v3 (by decide)).trans (w5_dst m ρ c)
theorem w6_rcol : W6 m ρ c (Proc.devRef .tc main_v12) = recipDegRaw (val_main_v3 (F := Ideal) (m ((c.tc : Thread nD τ).loc main_arg1))) := (W6_of_ne m ρ c main_v12 (by decide)).trans (w5_rcol m ρ c)
theorem w6_arg10 : W6 m ρ c (Proc.devRef .tc main_arg10) = (m ((c.tc : Thread nD τ).loc main_arg10)) := (W6_of_ne m ρ c main_arg10 (by decide)).trans (w5_arg10 m ρ c)
theorem w6_arg11 : W6 m ρ c (Proc.devRef .tc main_arg11) = (m ((c.tc : Thread nD τ).loc main_arg11)) := (W6_of_ne m ρ c main_arg11 (by decide)).trans (w5_arg11 m ρ c)
theorem w6_arg12 : W6 m ρ c (Proc.devRef .tc main_arg12) = (m ((c.tc : Thread nD τ).loc main_arg12)) := (W6_of_ne m ρ c main_arg12 (by decide)).trans (w5_arg12 m ρ c)

/-! ## Boundary 7: after the last stretch -/

theorem w7_mean : W7 m ρ c (Proc.devRef .tc main_v54) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (Stretch.s3_mean (W6 m ρ c)).trans ?_
  rw [w6_act, w6_src, w6_dst, w6_rcol]
  exact (Neighbours.meanMulRaw_eq_meanDiv _ _).trans (Neighbours.stage85 _ _ _ _ _ _ _ _ _ _).symm
theorem w7_bias : W7 m ρ c (Proc.devRef .tc main_v55) = (shapeCast S1x64 (m ((c.tc : Thread nD τ).loc main_arg12)) shapeCasts_S64_S1x64 : S1x64.Idx → EReal) := by
  refine (Stretch.s3_bias (W6 m ρ c)).trans ?_
  rw [w6_arg12]
theorem w7_act : W7 m ρ c (Proc.devRef .tc main_v42) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := (Stretch.s3_keep (W6 m ρ c) main_v42 (by decide)).trans (w6_act m ρ c)
theorem w7_arg10 : W7 m ρ c (Proc.devRef .tc main_arg10) = (m ((c.tc : Thread nD τ).loc main_arg10)) := (Stretch.s3_keep (W6 m ρ c) main_arg10 (by decide)).trans (w6_arg10 m ρ c)
theorem w7_arg11 : W7 m ρ c (Proc.devRef .tc main_arg11) = (m ((c.tc : Thread nD τ).loc main_arg11)) := (Stretch.s3_keep (W6 m ρ c) main_arg11 (by decide)).trans (w6_arg11 m ρ c)

end Cert.Bridge.KValue

end
-- ==== Proof.Out.lean ====
/-
  Pipeline 3: the output layer. Each of its 25 grid points takes rows 2000·t … 2000·t + 1999 of the neighbour mean and
  of the activations, the two whole 128×64 weight matrices and the bias row, forms the 64 logits of each row,
      z = mean·W_l + act·W_r + b,
  and writes the row's log-softmax: z − M − log Σ exp (z − M), with M the row's maximum (a fold of max from −∞ over the
  64 lanes). Row r of the result depends on row r of the two arrays only. So point `t` writes block `t` of ANY array `G`
  whose entry (r, q) is that formula of the rows r; the 25 blocks tile the 50000 rows, so after the pipeline the array
  IS `G`.
-/
import proofs.«154582_j15977278341936_1_alg».proof.Proof.Gen.KernelIdeal.Frame
import proofs.«154582_j15977278341936_1_alg».proof.Proof.Payloads
import Idealize.ShloMosaic.Lib.Pipeline.Value
import Idealize.ShloMosaic.Lib.ValueIdx

set_option maxRecDepth 16384

noncomputable section

namespace Cert.Bridge.Out

open Cert.KernelIdeal Cert.KernelIdeal.Gen Idealize.ShloMosaic Idealize.ShloMosaic.TcCoe Idealize.SL.Sem
open Idealize.ShloMosaic.ValueIdx
open Idealize.ShloMosaic.Pipeline (Dat)

/-- Lane q of row r's logits: the neighbour mean's row against `WL`, the activations' row against `WR`, the bias. -/
def logitOf (A H : S50000x128.Idx → EReal) (WL WR : S128x64.Idx → EReal) (B : S1x64.Idx → EReal) (r : Fin 50000) (q : Fin 64) : EReal :=
  ((∑ k : Fin 128, A (ix2 r k) * WL (ix2 k q)) + (∑ k : Fin 128, H (ix2 r k) * WR (ix2 k q))) + B (ix2 0 q)

/-- Row r's maximum logit: the fold of max from −∞ over the 64 lanes. -/
def rowMaxOf (A H : S50000x128.Idx → EReal) (WL WR : S128x64.Idx → EReal) (B : S1x64.Idx → EReal) (r : Fin 50000) : EReal :=
  (Finset.univ : Finset (Fin 64)).fold max (Ideal.ofBits .f32 0xFF800000#32) (logitOf A H WL WR B r)

/-- Lane q of row r's log-softmax. -/
def logSoftmaxOf (A H : S50000x128.Idx → EReal) (WL WR : S128x64.Idx → EReal) (B : S1x64.Idx → EReal) (r : Fin 50000) (q : Fin 64) : EReal :=
  (logitOf A H WL WR B r q - rowMaxOf A H WL WR B r)
    - Ideal.log (∑ q' : Fin 64, Ideal.exp (logitOf A H WL WR B r q' - rowMaxOf A H WL WR B r))

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 points: the three row windows sit at block (t, 0), the weights and the bias at (0, 0). -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem tlt (t : Fin cfg3.N) : t.val < 25 := lt_of_lt_of_eq t.isLt (N_3 : cfg3.N = 25)

/-- Row p of block t is row 2000·t + p of the array. -/
def row (t : Fin cfg3.N) (p : Fin 2000) : Fin 50000 := ⟨2000 * t.val + p.val, by have := tlt t; have := p.isLt; omega⟩

/-- The neighbour mean's block at point t: rows 2000·t … of the array the pipeline finds. -/
theorem mean_blk (c : Dev nD) (t : Fin cfg3.N) (p : Fin 2000) (k : Fin 128) :
    (iblk3 V c 0 t : Vec Ideal S2000x128 .f32) (ix2 p k) = (V c main_v54 : S50000x128.Idx → EReal) (ix2 (row t p) k) := by
  obtain ⟨e0, e1, -⟩ := idx t
  unfold iblk3
  rw [View.read_apply]
  show V c main_v54 _ = V c main_v54 _
  refine congrArg _ ?_
  funext a; apply Fin.ext
  match a with
  | ⟨0, _⟩ => show win3_0.index t (0 : Fin 2) * 2000 + 1 * p.val = 2000 * t.val + p.val; omega
  | ⟨1, _⟩ => show win3_0.index t (1 : Fin 2) * 128 + 1 * k.val = k.val; omega

/-- The activations' block at point t. -/
theorem act_blk (c : Dev nD) (t : Fin cfg3.N) (p : Fin 2000) (k : Fin 128) :
    (iblk3 V c 1 t : Vec Ideal S2000x128 .f32) (ix2 p k) = (V c main_v42 : S50000x128.Idx → EReal) (ix2 (row t p) k) := by
  obtain ⟨-, -, e0, e1, -⟩ := idx t
  unfold iblk3
  rw [View.read_apply]
  show V c main_v42 _ = V c main_v42 _
  refine congrArg _ ?_
  funext a; apply Fin.ext
  match a with
  | ⟨0, _⟩ => show win3_1.index t (0 : Fin 2) * 2000 + 1 * p.val = 2000 * t.val + p.val; omega
  | ⟨1, _⟩ => show win3_1.index t (1 : Fin 2) * 128 + 1 * k.val = k.val; omega

/-- A weight window's one block is the whole matrix. -/
theorem wl_blk (c : Dev nD) (t : Fin cfg3.N) (k : Fin 128) (q : Fin 64) :
    (iblk3 V c 2 t : Vec Ideal S128x64 .f32) (ix2 k q) = (V c main_arg10 : S128x64.Idx → EReal) (ix2 k q) := by
  obtain ⟨-, -, -, -, e0, e1, -⟩ := idx t
  unfold iblk3
  rw [View.read_apply]
  show V c main_arg10 _ = V c main_arg10 _
  refine congrArg _ ?_
  funext a; apply Fin.ext
  match a with
  | ⟨0, _⟩ => show win3_2.index t (0 : Fin 2) * 128 + 1 * k.val = k.val; omega
  | ⟨1, _⟩ => show win3_2.index t (1 : Fin 2) * 64 + 1 * q.val = q.val; omega

theorem wr_blk (c : Dev nD) (t : Fin cfg3.N) (k : Fin 128) (q : Fin 64) :
    (iblk3 V c 3 t : Vec Ideal S128x64 .f32) (ix2 k q) = (V c main_arg11 : S128x64.Idx → EReal) (ix2 k q) := by
  obtain ⟨-, -, -, -, -, -, e0, e1, -⟩ := idx t
  unfold iblk3
  rw [View.read_apply]
  show V c main_arg11 _ = V c main_arg11 _
  refine congrArg _ ?_
  funext a; apply Fin.ext
  match a with
  | ⟨0, _⟩ => show win3_3.index t (0 : Fin 2) * 128 + 1 * k.val = k.val; omega
  | ⟨1, _⟩ => show win3_3.index t (1 : Fin 2) * 64 + 1 * q.val = q.val; omega

/-- The bias window's one block is the whole row. -/
theorem b_blk (c : Dev nD) (t : Fin cfg3.N) (q : Fin 64) :
    (iblk3 V c 4 t : Vec Ideal S1x64 .f32) (ix2 0 q) = (V c main_v55 : S1x64.Idx → EReal) (ix2 0 q) := by
  obtain ⟨-, -, -, -, -, -, -, -, e0, e1, -⟩ := idx t
  unfold iblk3
  rw [View.read_apply]
  show V c main_v55 _ = V c main_v55 _
  refine congrArg _ ?_
  funext a; apply Fin.ext
  match a with
  | ⟨0, _⟩ => show win3_4.index t (0 : Fin 2) * 1 + 1 * 0 = 0; omega
  | ⟨1, _⟩ => show win3_4.index t (1 : Fin 2) * 64 + 1 * q.val = q.val; omega

/-- Where row p, lane q of the output block at point t sits in the array. -/
theorem emb_out (t : Fin cfg3.N) (p : Fin 2000) (q : Fin 64) :
    ((cfg3.win 5).blk t).view.emb (ix2 p q) = (ix2 (row t p) q : S50000x64.Idx) := by
  obtain ⟨-, -, -, -, -, -, -, -, -, -, e0, e1⟩ := idx t
  funext a; apply Fin.ext
  match a with
  | ⟨0, _⟩ => show win3_5.index t (0 : Fin 2) * 2000 + 1 * p.val = 2000 * t.val + p.val; omega
  | ⟨1, _⟩ => show win3_5.index t (1 : Fin 2) * 64 + 1 * q.val = q.val; omega

/-- The block's logits at row p are the arrays' logits at row 2000·t + p. -/
theorem logit_blk (c : Dev nD) (t : Fin cfg3.N) (p : Fin 2000) :
    Payloads.logit (iblk3 V c 0 t) (iblk3 V c 1 t) (iblk3 V c 2 t) (iblk3 V c 3 t) (iblk3 V c 4 t) p
      = logitOf (V c main_v54) (V c main_v42) (V c main_arg10) (V c main_arg11) (V c main_v55) (row t p) := by
  funext q
  unfold Payloads.logit logitOf
  simp only [mean_blk V c t p, act_blk V c t p, wl_blk V c t, wr_blk V c t, b_blk V c t q]

/-- The log-softmax entry (r, q) from the arrays the pipeline finds. -/
abbrev logSoftmax (c : Dev nD) (r : Fin 50000) (q : Fin 64) : EReal :=
  logSoftmaxOf (V c main_v54) (V c main_v42) (V c main_arg10) (V c main_arg11) (V c main_v55) r q

/-- The payload at a block's row p is the log-softmax entry at the array's row 2000·t + p. -/
theorem pay_logSoftmax (c : Dev nD) (t : Fin cfg3.N) (p : Fin 2000) (q : Fin 64) :
    k3_pay1 (F := Ideal) (iblk3 V c 0 t) (iblk3 V c 1 t) (iblk3 V c 2 t) (iblk3 V c 3 t) (iblk3 V c 4 t) (ix2 p q)
      = logSoftmax V c (row t p) q := by
  refine (Payloads.out_pay _ _ _ _ _ p q).trans ?_
  show _ = logSoftmaxOf (V c main_v54) (V c main_v42) (V c main_arg10) (V c main_arg11) (V c main_v55) (row t p) q
  unfold logSoftmaxOf rowMaxOf Payloads.rowMax
  rw [logit_blk V c t p]

/-- WHAT POINT t WRITES BACK: block t of any array whose entries are the log-softmax's. -/
theorem flushed_out (c : Dev nD) (t : Fin cfg3.N) (G : S50000x64.Idx → EReal)
    (hG : ∀ (r : Fin 50000) (q : Fin 64), G (ix2 r q) = logSoftmax V c r q) :
    (dat3 V c).flushed 5 t = ((cfg3.win 5).blk t).view.read (Elt Ideal) G := by
  show (cfg3.win 5).cut (grid3.coords t) ((dat3 V c).after 5 t) = _
  rw [after3_5]
  unfold out3_5
  rw [View.canon_unit_zero hz]
  simp only [View.ld_unit_zero (S := S2000x128) hz, View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = G (((cfg3.win 5).blk t).view.emb (ix2 p q))
  rw [emb_out t p q, hG]
  exact pay_logSoftmax V c t p q

/-- Every index of the output lies in the block of the point that owns its row: t = row / 2000. -/
theorem cover_out (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ : ∃ t : Fin cfg3.N, t.val = (i 0).val / 2000 :=
    ⟨⟨(i 0).val / 2000, lt_of_lt_of_eq (by omega : (i 0).val / 2000 < 25) (N_3 : cfg3.N = 25).symm⟩, rfl⟩
  obtain ⟨-, -, -, -, -, -, -, -, -, -, e0, e1⟩ := idx t
  refine ⟨t, flush3_5 t, ?_⟩
  show i ∈ ((View.whole main_v56).slice (win3_5.rect t)).set
  rw [View.set_slice_whole, Rect.mem_set_unit]
  intro a
  match a with
  | ⟨0, _⟩ => show win3_5.index t (0 : Fin 2) * 2000 ≤ (i 0).val ∧ (i 0).val < win3_5.index t (0 : Fin 2) * 2000 + 2000
              omega
  | ⟨1, _⟩ => show win3_5.index t (1 : Fin 2) * 64 ≤ (i 1).val ∧ (i 1).val < win3_5.index t (1 : Fin 2) * 64 + 64
              omega

/-- AFTER THE PIPELINE the result array is any `G` whose entries are the log-softmax's. -/
theorem final_out (c : Dev nD) (G : S50000x64.Idx → EReal)
    (hG : ∀ (r : Fin 50000) (q : Fin 64), G (ix2 r q) = logSoftmax V c r q) :
    (dat3 V c).arrAt 5 cfg3.N = G :=
  (dat3 V c).arrAt_eq_of_cover 5 G (fun t _ => flushed_out V c t G hG) cover_out

end Cert.Bridge.Out

end
-- ==== Proof.RefRowsOut.lean ====
/- The reference program's output layer and its log-softmax read row by row at the ideal instance.

   The output layer's value of row r at class q is a sum over the 128 features of the last neighbour mean's row
   and of the last activation's row through their weights, plus the bias. The log-softmax shifts the row by
   its maximum (folded from the word of minus infinity) and subtracts the logarithm of the sum over the 64
   classes of the exponentials of the shifted values. -/
import proofs.«154582_j15977278341936_1_alg».proof.Proof.RefRead
import Idealize.ShloMosaic.Lib.Pipeline.Value
import Idealize.ShloMosaic.Lib.ValueIdx
import Idealize.ShloMosaic.PureOps.Ideal.Laws
import Idealize.ShloMosaic.PureOps.Reduce

noncomputable section

namespace Cert.Bridge.RefRows

open Cert.ReferenceIdeal Cert.ReferenceIdeal.ReadP Idealize.ShloMosaic Idealize.ShloMosaic.ValueIdx
open scoped BigOperators

variable (x0 : (⟨S50000x128, .f32⟩ : BufTy).Contents (Elt Ideal))
  (x1 : (⟨S2x800000, .i32⟩ : BufTy).Contents (Elt Ideal))
  (x2 : (⟨S128x128, .f32⟩ : BufTy).Contents (Elt Ideal))
  (x3 : (⟨S128, .f32⟩ : BufTy).Contents (Elt Ideal))
  (x4 x5 : (⟨S128x128, .f32⟩ : BufTy).Contents (Elt Ideal))
  (x6 : (⟨S128, .f32⟩ : BufTy).Contents (Elt Ideal))
  (x7 x8 : (⟨S128x128, .f32⟩ : BufTy).Contents (Elt Ideal))
  (x9 : (⟨S128, .f32⟩ : BufTy).Contents (Elt Ideal))
  (x10 x11 : (⟨S128x64, .f32⟩ : BufTy).Contents (Elt Ideal))
  (x12 : (⟨S64, .f32⟩ : BufTy).Contents (Elt Ideal))

/-- The output layer's value of row `r` at class `q`, before the log-softmax. -/
def logit (r : Fin 50000) (q : Fin 64) : Ideal .f32 :=
  ((∑ k : Fin 128, val_main_v85 (F := Ideal) x0 x1 x2 x3 x4 x5 x6 x7 x8 x9 (ix2 r k) * x10 (ix2 k q))
    + (∑ k : Fin 128, val_main_v66 (F := Ideal) x0 x1 x2 x3 x4 x5 x6 x7 x8 x9 (ix2 r k) * x11 (ix2 k q)))
   + x12 (ix1 q)

/-- The maximum of row `r` of the output layer's values, folded from the word of minus infinity. -/
def rowMax (r : Fin 50000) : Ideal .f32 :=
  (Finset.univ : Finset (Fin 64)).fold max (Ideal.ofBits .f32 0xFF800000#32) (logit x0 x1 x2 x3 x4 x5 x6 x7 x8 x9 x10 x11 x12 r)

/-- The stage the log-softmax is applied to is the output layer's value. -/
theorem logit_row (r : Fin 50000) (q : Fin 64) :
    val_main_v91 (F := Ideal) x0 x1 x2 x3 x4 x5 x6 x7 x8 x9 x10 x11 x12 (ix2 r q) = logit x0 x1 x2 x3 x4 x5 x6 x7 x8 x9 x10 x11 x12 r q := by
  have el86 : ∀ k : Fin 128, lidx_main_v86 (ix2 r q) k = ix2 r k := fun k => funext fun a => Fin.ext (by match a with | ⟨0, _⟩ => rfl | ⟨1, _⟩ => rfl)
  have er86 : ∀ k : Fin 128, ridx_main_v86 (ix2 r q) k = ix2 k q := fun k => funext fun a => Fin.ext (by match a with | ⟨0, _⟩ => rfl | ⟨1, _⟩ => rfl)
  have el87 : ∀ k : Fin 128, lidx_main_v87 (ix2 r q) k = ix2 r k := fun k => funext fun a => Fin.ext (by match a with | ⟨0, _⟩ => rfl | ⟨1, _⟩ => rfl)
  have er87 : ∀ k : Fin 128, ridx_main_v87 (ix2 r q) k = ix2 k q := fun k => funext fun a => Fin.ext (by match a with | ⟨0, _⟩ => rfl | ⟨1, _⟩ => rfl)
  have eb : idx_main_v89 (idx_main_v90 (ix2 r q)) = ix1 q := funext fun a => Fin.ext (by match a with | ⟨0, _⟩ => rfl)
  unfold logit
  rw [val_main_v91_apply, val_main_v88_apply, val_main_v86_apply, val_main_v87_apply, val_main_v90_apply,
    val_main_v89_apply]
  simp only [el86, er86, el87, er87, eb, Ideal.addf_def]

/-- The row maximum the log-softmax subtracts: the maximum of the word of minus infinity and the reduction folded
    from that same word is the fold itself, because the fold is at least its initial value. -/
theorem rowMax_row (r : Fin 50000) :
    val_main_call3_v2 (F := Ideal) x0 x1 x2 x3 x4 x5 x6 x7 x8 x9 x10 x11 x12 (ix1 r) = rowMax x0 x1 x2 x3 x4 x5 x6 x7 x8 x9 x10 x11 x12 r := by
  have hred : S50000x64.Reduces [1] S50000 := by decide
  have hl : ∀ q : Fin 64, val_main_v91 (F := Ideal) x0 x1 x2 x3 x4 x5 x6 x7 x8 x9 x10 x11 x12 (ix2 r q) = logit x0 x1 x2 x3 x4 x5 x6 x7 x8 x9 x10 x11 x12 r q :=
    fun q => logit_row x0 x1 x2 x3 x4 x5 x6 x7 x8 x9 x10 x11 x12 r q
  rw [val_main_call3_v2_apply, val_main_call3_v1_apply, val_main_call3_cst_0_apply]
  unfold val_main_call3_v0
  rw [Host.reduce_eq_fold_single FloatOps.maximumf _ _ Gen.reducesTo_S50000x64_S50000_d1 hred Gen.h_S_ (ix1 r),
    val_main_call3_cst_apply]
  simp only [Ideal.ofBits_def, Ideal.maximumf_def]
  unfold rowMax
  generalize val_main_v91 (F := Ideal) x0 x1 x2 x3 x4 x5 x6 x7 x8 x9 x10 x11 x12 = y at hl ⊢
  refine (max_eq_right ((Finset.le_fold_max _).2 (Or.inl le_rfl))).trans ?_
  refine Finset.fold_congr fun k _ => ?_
  have e : hred.lift (ix1 r) k = ix2 r k := funext fun a => Fin.ext (by match a with | ⟨0, _⟩ => rfl | ⟨1, _⟩ => rfl)
  rw [Function.comp_apply, e]
  exact hl k

/-- The shifted value at `(r, q)`: the output layer's value less the row maximum. -/
theorem shift_row (r : Fin 50000) (q : Fin 64) :
    val_main_call3_v5 (F := Ideal) x0 x1 x2 x3 x4 x5 x6 x7 x8 x9 x10 x11 x12 (ix2 r q) = logit x0 x1 x2 x3 x4 x5 x6 x7 x8 x9 x10 x11 x12 r q - rowMax x0 x1 x2 x3 x4 x5 x6 x7 x8 x9 x10 x11 x12 r := by
  have e4 : idx_main_call3_v3 (idx_main_call3_v4 (ix2 r q)) = ix1 r := funext fun a => Fin.ext (by match a with | ⟨0, _⟩ => rfl)
  rw [val_main_call3_v5_apply, val_main_call3_v4_apply, val_main_call3_v3_apply, e4, rowMax_row, logit_row,
    Ideal.subf_def]

/-- The log-softmax's output at `(r, q)`: the value less the row maximum, less the logarithm of the sum over the
    classes of the exponentials of the values less the row maximum. -/
theorem out_row (r : Fin 50000) (q : Fin 64) :
    val_main_v92 (F := Ideal) x0 x1 x2 x3 x4 x5 x6 x7 x8 x9 x10 x11 x12 (ix2 r q)
      = (logit x0 x1 x2 x3 x4 x5 x6 x7 x8 x9 x10 x11 x12 r q - rowMax x0 x1 x2 x3 x4 x5 x6 x7 x8 x9 x10 x11 x12 r)
        - Ideal.log (∑ q' : Fin 64, Ideal.exp (logit x0 x1 x2 x3 x4 x5 x6 x7 x8 x9 x10 x11 x12 r q' - rowMax x0 x1 x2 x3 x4 x5 x6 x7 x8 x9 x10 x11 x12 r)) := by
  have e10 : idx_main_call3_v8 (idx_main_call3_v10 (ix2 r q)) = ix1 r := funext fun a => Fin.ext (by match a with | ⟨0, _⟩ => rfl)
  have e7 : ∀ k : Fin 64, idx_main_call3_v7 (ix1 r) k = ix2 r k := fun k => funext fun a => Fin.ext (by match a with | ⟨0, _⟩ => rfl | ⟨1, _⟩ => rfl)
  have h6 : ∀ k : Fin 64, val_main_call3_v6 (F := Ideal) x0 x1 x2 x3 x4 x5 x6 x7 x8 x9 x10 x11 x12 (ix2 r k)
      = Ideal.exp (logit x0 x1 x2 x3 x4 x5 x6 x7 x8 x9 x10 x11 x12 r k - rowMax x0 x1 x2 x3 x4 x5 x6 x7 x8 x9 x10 x11 x12 r) := by
    intro k
    rw [val_main_call3_v6_apply, shift_row, Ideal.hostUnary_exp_def]
  rw [val_main_v92_apply, val_main_call3_v10_apply, val_main_call3_v9_apply, val_main_call3_v8_apply, e10,
    val_main_call3_v7_apply, val_main_call3_cst_1_apply, shift_row]
  simp only [e7, h6, Ideal.subf_def, Ideal.hostUnary_log_def, Ideal.ofBits_def, Ideal.ofBits_zero_f32, zero_add]

end Cert.Bridge.RefRows

end
-- ==== Proof.KOut.lean ====
/-
  The last boundary of the idealized kernel's run: the output layer's pipeline finds the third neighbour mean, the
  third activations, the two output weight matrices and the output bias row, and leaves in the result array, row by row,
  the log-softmax of the logits — which is, row by row, the reference's last stage.
-/
import proofs.«154582_j15977278341936_1_alg».proof.Proof.KValue
import proofs.«154582_j15977278341936_1_alg».proof.Proof.Out
import proofs.«154582_j15977278341936_1_alg».proof.Proof.RefRowsOut

set_option maxRecDepth 16384

noncomputable section

namespace Cert.Bridge.KValue

open Cert.KernelIdeal Cert.KernelIdeal.Gen Idealize.ShloMosaic Idealize.ShloMosaic.TcCoe Idealize.SL.Sem
open Idealize.ShloMosaic.ValueIdx
open Cert.ReferenceIdeal.ReadP (val_main_v1 val_main_v3 val_main_v7 val_main_v8 val_main_v27 val_main_v37 val_main_v56 val_main_v66 val_main_v85 val_main_v92)

variable (m : (ℓ : Loc nD τ sig) → Buf (Elt Ideal) ℓ) (ρ : Dev nD → PrngReg) (c : Dev nD)

/-! ## Boundary 8: after the output layer — the result -/

/-- The result array is the reference's last stage. -/
theorem w8_out : W8 m ρ c (Proc.devRef .tc main_v56) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W8_arr m ρ c 5).trans ?_
  refine Out.final_out (V7 m ρ) c _ (fun r q => ?_)
  show _ = Out.logSoftmaxOf (W7 m ρ c (Proc.devRef .tc main_v54)) (W7 m ρ c (Proc.devRef .tc main_v42)) (W7 m ρ c (Proc.devRef .tc main_arg10))
    (W7 m ρ c (Proc.devRef .tc main_arg11)) (W7 m ρ c (Proc.devRef .tc main_v55)) r q
  rw [w7_mean, w7_act, w7_arg10, w7_arg11, w7_bias]
  have hl : Out.logitOf (val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) (m ((c.tc : Thread nD τ).loc main_arg11))
      (shapeCast S1x64 (m ((c.tc : Thread nD τ).loc main_arg12)) shapeCasts_S64_S1x64 : S1x64.Idx → EReal) r
      = RefRows.logit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) r := by
    funext q'
    unfold Out.logitOf RefRows.logit
    rw [bias_row64]
  unfold Out.logSoftmaxOf Out.rowMaxOf
  rw [hl]
  exact (RefRows.out_row _ _ _ _ _ _ _ _ _ _ _ _ _ r q).trans (by unfold RefRows.rowMax; rfl)

end Cert.Bridge.KValue

end
-- ==== Proof.RefChain.lean ====
/- The reference program's run, read stage by stage.

   The reference is a straight line of 133 host operations. Its values are used more than once (the two rows of the
   edge list by all three neighbour means, each layer's output by the next mean, by the next dense product and by the
   skip connection), so the single term for the result in the arguments is exponentially larger than the program. It is
   never formed here. The line is cut at the values that are used again into seven stages; each stage is read over an
   ARBITRARY entering valuation `W` whose input buffers are known by hypothesis to hold the stage functions
   `val_main_vN` of the arguments, and shown to leave in its output buffer the next stage function of the arguments
   (the definitions unfold one stage deep, the earlier stages staying folded on both sides); each stage also leaves
   alone every buffer it does not write. Chaining the seven boundaries gives the result buffer after the whole line as
   `val_main_v92` of the arguments, and with the run of a straight line (`run_seq`) the statement `run`. -/
import proofs.«154582_j15977278341936_1_alg».proof.Proof.RefRun
import proofs.«154582_j15977278341936_1_alg».proof.Proof.RefRead

set_option maxRecDepth 16384

noncomputable section

namespace Cert.Bridge.RefChain

open Cert.ReferenceIdeal Cert.ReferenceIdeal.Gen Cert.ReferenceIdeal.RunP Cert.ReferenceIdeal.ReadP Idealize.ShloMosaic Idealize.ShloMosaic.TcCoe Idealize.SL.Sem Idealize.ShloMosaic.StableHlo

variable {F : FTy → Type} [FloatOps F]

/-! ## The seven stages

The operations of `ops`, in order, as seven literal lists (`ops_split`: their concatenation is `ops`, by computation). -/

/-- Stage A (operations 0–10 of `ops`): the edge list's two rows (`main_v1`, `main_v3`), the input projection (`main_v7`) and its rectified form (`main_v8`). -/
def sA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v7) (TRef.of (T := ⟨S50000x128, .f32⟩) main_call0_v0) (TRef.of (T := ⟨S50000x128, .f32⟩) main_v8) maximumf ]

/-- Stage B (operations 11–35 of `ops`): the first neighbour mean (`main_v27`): the rows of `main_v8` gathered at the source row, summed at the target row, divided by the clipped count. -/
def sB : List (HloOp τ sig (Elt F)) :=
  [ nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v16 (broadcastInDim S50000x128 ![] bcast_S_S50000x128 : (⟨S_, .f32⟩ : BufTy).Contents (Elt F) → (⟨S50000x128, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v19 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v20 (broadcastInDim S50000 ![] bcast_S_S50000 : (⟨S_, .f32⟩ : BufTy).Contents (Elt F) → (⟨S50000, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v23 (broadcastInDim S50000 ![] bcast_S_S50000 : (⟨S_, .f32⟩ : BufTy).Contents (Elt F) → (⟨S50000, .f32⟩ : BufTy).Contents (Elt F)),
    binary main_v22 main_v23 main_v24 (maximumf : (⟨S50000, .f32⟩ : BufTy).Contents (Elt F) → (⟨S50000, .f32⟩ : BufTy).Contents (Elt F) → (⟨S50000, .f32⟩ : BufTy).Contents (Elt F)),
    unary main_v24 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x128 ![0, 1] bcast_S50000x1_S50000x128_0_1 : (⟨S50000x1, .f32⟩ : BufTy).Contents (Elt F) → (⟨S50000x128, .f32⟩ : BufTy).Contents (Elt F)),
    binary main_v18 main_v26 main_v27 (Host.divf : (⟨S50000x128, .f32⟩ : BufTy).Contents (Elt F) → (⟨S50000x128, .f32⟩ : BufTy).Contents (Elt F) → (⟨S50000x128, .f32⟩ : BufTy).Contents (Elt F)) ]

/-- Stage C (operations 36–48 of `ops`): the first layer's output (`main_v37`): two dense products added, a bias, the rectifier, and the skip term on `main_v7`. -/
def sC : List (HloOp τ sig (Elt F)) :=
  [ binary main_v27 main_arg4 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v8 main_arg5 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v28 main_v29 main_v30 (addf : (⟨S50000x128, .f32⟩ : BufTy).Contents (Elt F) → (⟨S50000x128, .f32⟩ : BufTy).Contents (Elt F) → (⟨S50000x128, .f32⟩ : BufTy).Contents (Elt F)),
    unary main_arg6 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v33) (TRef.of (T := ⟨S50000x128, .f32⟩) main_call1_v0) (TRef.of (T := ⟨S50000x128, .f32⟩) main_v34) maximumf,
    nullary main_cst_4 (constant S_ .f32 0x3E4CCCCD#32),
    unary main_cst_4 main_v35 (broadcastInDim S50000x128 ![] bcast_S_S50000x128 : (⟨S_, .f32⟩ : BufTy).Contents (Elt F) → (⟨S50000x128, .f32⟩ : BufTy).Contents (Elt F)),
    binary main_v35 main_v7 main_v36 (mulf : (⟨S50000x128, .f32⟩ : BufTy).Contents (Elt F) → (⟨S50000x128, .f32⟩ : BufTy).Contents (Elt F) → (⟨S50000x128, .f32⟩ : BufTy).Contents (Elt F)),
    binary main_v34 main_v36 main_v37 (addf : (⟨S50000x128, .f32⟩ : BufTy).Contents (Elt F) → (⟨S50000x128, .f32⟩ : BufTy).Contents (Elt F) → (⟨S50000x128, .f32⟩ : BufTy).Contents (Elt F)) ]

/-- Stage D (operations 49–73 of `ops`): the second neighbour mean (`main_v56`), of `main_v37`. -/
def sD : List (HloOp τ sig (Elt F)) :=
  [ nullary main_c_5 (constantI S_ 32 0#32),
    unary main_c_5 main_v38 (broadcastInDim S800000 ![] bcast_S_S800000 : (⟨S_, .i32⟩ : BufTy).Contents (Elt F) → (⟨S800000, .i32⟩ : BufTy).Contents (Elt F)),
    binary main_v1 main_v38 main_v39 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v40 (broadcastInDim S800000 ![] bcast_S_S800000 : (⟨S_, .i32⟩ : BufTy).Contents (Elt F) → (⟨S800000, .i32⟩ : BufTy).Contents (Elt F)),
    binary main_v1 main_v40 main_v41 (addi : (⟨S800000, .i32⟩ : BufTy).Contents (Elt F) → (⟨S800000, .i32⟩ : BufTy).Contents (Elt F) → (⟨S800000, .i32⟩ : BufTy).Contents (Elt F)),
    ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v42 main_v43 (broadcastInDim S800000x1 ![0] bcast_S800000_S800000x1_0 : (⟨S800000, .i32⟩ : BufTy).Contents (Elt F) → (⟨S800000x1, .i32⟩ : BufTy).Contents (Elt F)),
    binary main_v37 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_7 (constant S_ .f32 0x00000000#32),
    unary main_cst_7 main_v45 (broadcastInDim S50000x128 ![] bcast_S_S50000x128 : (⟨S_, .f32⟩ : BufTy).Contents (Elt F) → (⟨S50000x128, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_8 (constant S_ .f32 0x3F800000#32),
    unary main_cst_8 main_v48 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v49 (broadcastInDim S50000 ![] bcast_S_S50000 : (⟨S_, .f32⟩ : BufTy).Contents (Elt F) → (⟨S50000, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v52 (broadcastInDim S50000 ![] bcast_S_S50000 : (⟨S_, .f32⟩ : BufTy).Contents (Elt F) → (⟨S50000, .f32⟩ : BufTy).Contents (Elt F)),
    binary main_v51 main_v52 main_v53 (maximumf : (⟨S50000, .f32⟩ : BufTy).Contents (Elt F) → (⟨S50000, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v47 main_v55 main_v56 (Host.divf : (⟨S50000x128, .f32⟩ : BufTy).Contents (Elt F) → (⟨S50000x128, .f32⟩ : BufTy).Contents (Elt F) → (⟨S50000x128, .f32⟩ : BufTy).Contents (Elt F)) ]

/-- Stage E (operations 74–86 of `ops`): the second layer's output (`main_v66`). -/
def sE : List (HloOp τ sig (Elt F)) :=
  [ binary main_v56 main_arg7 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v37 main_arg8 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v57 main_v58 main_v59 (addf : (⟨S50000x128, .f32⟩ : BufTy).Contents (Elt F) → (⟨S50000x128, .f32⟩ : BufTy).Contents (Elt F) → (⟨S50000x128, .f32⟩ : BufTy).Contents (Elt F)),
    unary main_arg9 main_v60 (broadcastInDim S1x128 ![1] bcast_S128_S1x128_1 : (⟨S128, .f32⟩ : BufTy).Contents (Elt F) → (⟨S1x128, .f32⟩ : BufTy).Contents (Elt F)),
    unary main_v60 main_v61 (broadcastInDim S50000x128 ![0, 1] bcast_S1x128_S50000x128_0_1 : (⟨S1x128, .f32⟩ : BufTy).Contents (Elt F) → (⟨S50000x128, .f32⟩ : BufTy).Contents (Elt F)),
    binary main_v59 main_v61 main_v62 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v62) (TRef.of (T := ⟨S50000x128, .f32⟩) main_call2_v0) (TRef.of (T := ⟨S50000x128, .f32⟩) main_v63) maximumf,
    nullary main_cst_11 (constant S_ .f32 0x3E4CCCCD#32),
    unary main_cst_11 main_v64 (broadcastInDim S50000x128 ![] bcast_S_S50000x128 : (⟨S_, .f32⟩ : BufTy).Contents (Elt F) → (⟨S50000x128, .f32⟩ : BufTy).Contents (Elt F)),
    binary main_v64 main_v7 main_v65 (mulf : (⟨S50000x128, .f32⟩ : BufTy).Contents (Elt F) → (⟨S50000x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)) ]

/-- Stage F (operations 87–111 of `ops`): the third neighbour mean (`main_v85`), of `main_v66`. -/
def sF : List (HloOp τ sig (Elt F)) :=
  [ nullary main_c_12 (constantI S_ 32 0#32),
    unary main_c_12 main_v67 (broadcastInDim S800000 ![] bcast_S_S800000 : (⟨S_, .i32⟩ : BufTy).Contents (Elt F) → (⟨S800000, .i32⟩ : BufTy).Contents (Elt F)),
    binary main_v1 main_v67 main_v68 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v69 (broadcastInDim S800000 ![] bcast_S_S800000 : (⟨S_, .i32⟩ : BufTy).Contents (Elt F) → (⟨S800000, .i32⟩ : BufTy).Contents (Elt F)),
    binary main_v1 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_v1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_14 (constant S_ .f32 0x00000000#32),
    unary main_cst_14 main_v74 (broadcastInDim S50000x128 ![] bcast_S_S50000x128 : (⟨S_, .f32⟩ : BufTy).Contents (Elt F) → (⟨S50000x128, .f32⟩ : BufTy).Contents (Elt F)),
    unary main_v3 main_v75 (broadcastInDim S800000x1 ![0] bcast_S800000_S800000x1_0 : (⟨S800000, .i32⟩ : BufTy).Contents (Elt F) → (⟨S800000x1, .i32⟩ : BufTy).Contents (Elt F)),
    ternary main_v74 main_v75 main_v73 main_v76 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_15 (constant S_ .f32 0x3F800000#32),
    unary main_cst_15 main_v77 (broadcastInDim S800000 ![] bcast_S_S800000 : (⟨S_, .f32⟩ : BufTy).Contents (Elt F) → (⟨S800000, .f32⟩ : BufTy).Contents (Elt F)),
    nullary main_cst_16 (constant S_ .f32 0x00000000#32),
    unary main_cst_16 main_v78 (broadcastInDim S50000 ![] bcast_S_S50000 : (⟨S_, .f32⟩ : BufTy).Contents (Elt F) → (⟨S50000, .f32⟩ : BufTy).Contents (Elt F)),
    unary main_v3 main_v79 (broadcastInDim S800000x1 ![0] bcast_S800000_S800000x1_0 : (⟨S800000, .i32⟩ : BufTy).Contents (Elt F) → (⟨S800000x1, .i32⟩ : BufTy).Contents (Elt F)),
    ternary main_v78 main_v79 main_v77 main_v80 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v81 (broadcastInDim S50000 ![] bcast_S_S50000 : (⟨S_, .f32⟩ : BufTy).Contents (Elt F) → (⟨S50000, .f32⟩ : BufTy).Contents (Elt F)),
    binary main_v80 main_v81 main_v82 (maximumf : (⟨S50000, .f32⟩ : BufTy).Contents (Elt F) → (⟨S50000, .f32⟩ : BufTy).Contents (Elt F) → (⟨S50000, .f32⟩ : BufTy).Contents (Elt F)),
    unary main_v82 main_v83 (broadcastInDim S50000x1 ![0] bcast_S50000_S50000x1_0 : (⟨S50000, .f32⟩ : BufTy).Contents (Elt F) → (⟨S50000x1, .f32⟩ : BufTy).Contents (Elt F)),
    unary main_v83 main_v84 (broadcastInDim S50000x128 ![0, 1] bcast_S50000x1_S50000x128_0_1 : (⟨S50000x1, .f32⟩ : BufTy).Contents (Elt F) → (⟨S50000x128, .f32⟩ : BufTy).Contents (Elt F)),
    binary main_v76 main_v84 main_v85 (Host.divf : (⟨S50000x128, .f32⟩ : BufTy).Contents (Elt F) → (⟨S50000x128, .f32⟩ : BufTy).Contents (Elt F) → (⟨S50000x128, .f32⟩ : BufTy).Contents (Elt F)) ]

/-- Stage G (operations 112–132 of `ops`): the last layer and the row-wise logarithm of the softmax (`main_v92`). -/
def sG : List (HloOp τ sig (Elt F)) :=
  [ binary main_v85 main_arg10 main_v86 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v66 main_arg11 main_v87 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v86 main_v87 main_v88 (addf : (⟨S50000x64, .f32⟩ : BufTy).Contents (Elt F) → (⟨S50000x64, .f32⟩ : BufTy).Contents (Elt F) → (⟨S50000x64, .f32⟩ : BufTy).Contents (Elt F)),
    unary main_arg12 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v88 main_v90 main_v91 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0xFF800000#32),
    TRef.binary (TRef.of (T := ⟨S50000x64, .f32⟩) main_v91) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v91) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v92) subf ]

/-! ## The line as the stages in turn -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program's operations are the seven stages, in order. -/
theorem ops_split : (ops : List (HloOp τ sig (Elt F))) = sA ++ (sB ++ (sC ++ (sD ++ (sE ++ (sF ++ sG))))) := rfl

/-- The contents after the whole program are the contents after the seven stages, one after the other. -/
theorem after_ops (W : Valuation τ sig (Elt F)) :
    after ops W = after sG (after sF (after sE (after sD (after sC (after sB (after sA W)))))) := by
  rw [ops_split, after_append, after_append, after_append, after_append, after_append, after_append]

/-! ## What each stage writes, and what it leaves alone -/

/-- The references the operations of stage A write. -/
abbrev sA_W : List (Ref sig .tc) := [main_v0, main_v1, main_v2, main_v3, main_v4, main_v5, main_v6, main_v7, main_call0_cst, main_call0_v0, main_v8]
theorem sA_writes : (sA : List (HloOp τ sig (Elt F))).Forall fun op => op.writes ⊆ ((sA_W).map (Proc.devRef (τ := τ) .tc)).toFinset := by
  simp only [sA, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage A leaves every buffer it does not write as it was. -/
theorem keepA (W : Valuation τ sig (Elt F)) (r : Ref sig .tc) (h : r ∉ sA_W) :
    after sA W (Proc.devRef .tc r) = W (Proc.devRef .tc r) :=
  after_of_writes_sub sA W sA_writes h

/-- The references the operations of stage B write. -/
abbrev sB_W : List (Ref sig .tc) := [main_c, main_v9, main_v10, main_c_0, main_v11, main_v12, main_v13, main_v14, main_v15, main_cst, main_v16, main_v17, main_v18, main_cst_1, main_v19, main_cst_2, main_v20, main_v21, main_v22, main_cst_3, main_v23, main_v24, main_v25, main_v26, main_v27]
theorem sB_writes : (sB : List (HloOp τ sig (Elt F))).Forall fun op => op.writes ⊆ ((sB_W).map (Proc.devRef (τ := τ) .tc)).toFinset := by
  simp only [sB, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage B leaves every buffer it does not write as it was. -/
theorem keepB (W : Valuation τ sig (Elt F)) (r : Ref sig .tc) (h : r ∉ sB_W) :
    after sB W (Proc.devRef .tc r) = W (Proc.devRef .tc r) :=
  after_of_writes_sub sB W sB_writes h

/-- The references the operations of stage C write. -/
abbrev sC_W : List (Ref sig .tc) := [main_v28, main_v29, main_v30, main_v31, main_v32, main_v33, main_call1_cst, main_call1_v0, main_v34, main_cst_4, main_v35, main_v36, main_v37]
theorem sC_writes : (sC : List (HloOp τ sig (Elt F))).Forall fun op => op.writes ⊆ ((sC_W).map (Proc.devRef (τ := τ) .tc)).toFinset := by
  simp only [sC, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage C leaves every buffer it does not write as it was. -/
theorem keepC (W : Valuation τ sig (Elt F)) (r : Ref sig .tc) (h : r ∉ sC_W) :
    after sC W (Proc.devRef .tc r) = W (Proc.devRef .tc r) :=
  after_of_writes_sub sC W sC_writes h

/-- The references the operations of stage D write. -/
abbrev sD_W : List (Ref sig .tc) := [main_c_5, main_v38, main_v39, main_c_6, main_v40, main_v41, main_v42, main_v43, main_v44, main_cst_7, main_v45, main_v46, main_v47, main_cst_8, main_v48, main_cst_9, main_v49, main_v50, main_v51, main_cst_10, main_v52, main_v53, main_v54, main_v55, main_v56]
theorem sD_writes : (sD : List (HloOp τ sig (Elt F))).Forall fun op => op.writes ⊆ ((sD_W).map (Proc.devRef (τ := τ) .tc)).toFinset := by
  simp only [sD, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage D leaves every buffer it does not write as it was. -/
theorem keepD (W : Valuation τ sig (Elt F)) (r : Ref sig .tc) (h : r ∉ sD_W) :
    after sD W (Proc.devRef .tc r) = W (Proc.devRef .tc r) :=
  after_of_writes_sub sD W sD_writes h

/-- The references the operations of stage E write. -/
abbrev sE_W : List (Ref sig .tc) := [main_v57, main_v58, main_v59, main_v60, main_v61, main_v62, main_call2_cst, main_call2_v0, main_v63, main_cst_11, main_v64, main_v65, main_v66]
theorem sE_writes : (sE : List (HloOp τ sig (Elt F))).Forall fun op => op.writes ⊆ ((sE_W).map (Proc.devRef (τ := τ) .tc)).toFinset := by
  simp only [sE, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage E leaves every buffer it does not write as it was. -/
theorem keepE (W : Valuation τ sig (Elt F)) (r : Ref sig .tc) (h : r ∉ sE_W) :
    after sE W (Proc.devRef .tc r) = W (Proc.devRef .tc r) :=
  after_of_writes_sub sE W sE_writes h

/-- The references the operations of stage F write. -/
abbrev sF_W : List (Ref sig .tc) := [main_c_12, main_v67, main_v68, main_c_13, main_v69, main_v70, main_v71, main_v72, main_v73, main_cst_14, main_v74, main_v75, main_v76, main_cst_15, main_v77, main_cst_16, main_v78, main_v79, main_v80, main_cst_17, main_v81, main_v82, main_v83, main_v84, main_v85]
theorem sF_writes : (sF : List (HloOp τ sig (Elt F))).Forall fun op => op.writes ⊆ ((sF_W).map (Proc.devRef (τ := τ) .tc)).toFinset := by
  simp only [sF, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage F leaves every buffer it does not write as it was. -/
theorem keepF (W : Valuation τ sig (Elt F)) (r : Ref sig .tc) (h : r ∉ sF_W) :
    after sF W (Proc.devRef .tc r) = W (Proc.devRef .tc r) :=
  after_of_writes_sub sF W sF_writes h

/-- The references the operations of stage G write. -/
abbrev sG_W : List (Ref sig .tc) := [main_v86, main_v87, main_v88, main_v89, main_v90, main_v91, main_call3_cst, main_call3_v0, main_call3_cst_0, main_call3_v1, main_call3_v2, main_call3_v3, main_call3_v4, main_call3_v5, main_call3_v6, main_call3_cst_1, main_call3_v7, main_call3_v8, main_call3_v9, main_call3_v10, main_v92]
theorem sG_writes : (sG : List (HloOp τ sig (Elt F))).Forall fun op => op.writes ⊆ ((sG_W).map (Proc.devRef (τ := τ) .tc)).toFinset := by
  simp only [sG, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))
/-- Stage G leaves every buffer it does not write as it was. -/
theorem keepG (W : Valuation τ sig (Elt F)) (r : Ref sig .tc) (h : r ∉ sG_W) :
    after sG W (Proc.devRef .tc r) = W (Proc.devRef .tc r) :=
  after_of_writes_sub sG W sG_writes h

/-- A buffer no stage writes is left as it was by the whole program. -/
theorem keep_ops (W : Valuation τ sig (Elt F)) (r : Ref sig .tc) (hA : r ∉ sA_W) (hB : r ∉ sB_W) (hC : r ∉ sC_W) (hD : r ∉ sD_W) (hE : r ∉ sE_W) (hF : r ∉ sF_W) (hG : r ∉ sG_W) :
    after ops W (Proc.devRef .tc r) = W (Proc.devRef .tc r) := by
  rw [after_ops, keepG _ r hG, keepF _ r hF, keepE _ r hE, keepD _ r hD, keepC _ r hC, keepB _ r hB, keepA _ r hA]

/-! ## The typed references of the last stage

The operations of the called function (the row-wise logarithm of the softmax) are stated over references that carry the
type of the value they hold, and move contents between that type and the buffer's own along an equation of types that
holds by computation. At each such reference the transport is the identity. (Stated with `id`, so that rewriting with
these equations goes subterm by subterm instead of comparing the whole goal before and after by unfolding.) -/

theorem ofBuf_call3_cst (v : (⟨S_, .f32⟩ : BufTy).Contents (Elt F)) : (TRef.of (T := ⟨S_, .f32⟩) main_call3_cst).ofBuf (Val := Elt F) v = v := id rfl
theorem toBuf_call3_cst (v : (⟨S_, .f32⟩ : BufTy).Contents (Elt F)) : (TRef.of (T := ⟨S_, .f32⟩) main_call3_cst).toBuf (Val := Elt F) v = v := id rfl
theorem ofBuf_v91 (v : (⟨S50000x64, .f32⟩ : BufTy).Contents (Elt F)) : (TRef.of (T := ⟨S50000x64, .f32⟩) main_v91).ofBuf (Val := Elt F) v = v := id rfl
theorem toBuf_v91 (v : (⟨S50000x64, .f32⟩ : BufTy).Contents (Elt F)) : (TRef.of (T := ⟨S50000x64, .f32⟩) main_v91).toBuf (Val := Elt F) v = v := id rfl
theorem ofBuf_call3_v0 (v : (⟨S50000, .f32⟩ : BufTy).Contents (Elt F)) : (TRef.of (T := ⟨S50000, .f32⟩) main_call3_v0).ofBuf (Val := Elt F) v = v := id rfl
theorem toBuf_call3_v0 (v : (⟨S50000, .f32⟩ : BufTy).Contents (Elt F)) : (TRef.of (T := ⟨S50000, .f32⟩) main_call3_v0).toBuf (Val := Elt F) v = v := id rfl
theorem ofBuf_call3_cst_0 (v : (⟨S_, .f32⟩ : BufTy).Contents (Elt F)) : (TRef.of (T := ⟨S_, .f32⟩) main_call3_cst_0).ofBuf (Val := Elt F) v = v := id rfl
theorem toBuf_call3_cst_0 (v : (⟨S_, .f32⟩ : BufTy).Contents (Elt F)) : (TRef.of (T := ⟨S_, .f32⟩) main_call3_cst_0).toBuf (Val := Elt F) v = v := id rfl
theorem ofBuf_call3_v1 (v : (⟨S50000, .f32⟩ : BufTy).Contents (Elt F)) : (TRef.of (T := ⟨S50000, .f32⟩) main_call3_v1).ofBuf (Val := Elt F) v = v := id rfl
theorem toBuf_call3_v1 (v : (⟨S50000, .f32⟩ : BufTy).Contents (Elt F)) : (TRef.of (T := ⟨S50000, .f32⟩) main_call3_v1).toBuf (Val := Elt F) v = v := id rfl
theorem ofBuf_call3_v2 (v : (⟨S50000, .f32⟩ : BufTy).Contents (Elt F)) : (TRef.of (T := ⟨S50000, .f32⟩) main_call3_v2).ofBuf (Val := Elt F) v = v := id rfl
theorem toBuf_call3_v2 (v : (⟨S50000, .f32⟩ : BufTy).Contents (Elt F)) : (TRef.of (T := ⟨S50000, .f32⟩) main_call3_v2).toBuf (Val := Elt F) v = v := id rfl
theorem ofBuf_call3_v3 (v : (⟨S50000x1, .f32⟩ : BufTy).Contents (Elt F)) : (TRef.of (T := ⟨S50000x1, .f32⟩) main_call3_v3).ofBuf (Val := Elt F) v = v := id rfl
theorem toBuf_call3_v3 (v : (⟨S50000x1, .f32⟩ : BufTy).Contents (Elt F)) : (TRef.of (T := ⟨S50000x1, .f32⟩) main_call3_v3).toBuf (Val := Elt F) v = v := id rfl
theorem ofBuf_call3_v4 (v : (⟨S50000x64, .f32⟩ : BufTy).Contents (Elt F)) : (TRef.of (T := ⟨S50000x64, .f32⟩) main_call3_v4).ofBuf (Val := Elt F) v = v := id rfl
theorem toBuf_call3_v4 (v : (⟨S50000x64, .f32⟩ : BufTy).Contents (Elt F)) : (TRef.of (T := ⟨S50000x64, .f32⟩) main_call3_v4).toBuf (Val := Elt F) v = v := id rfl
theorem ofBuf_call3_v5 (v : (⟨S50000x64, .f32⟩ : BufTy).Contents (Elt F)) : (TRef.of (T := ⟨S50000x64, .f32⟩) main_call3_v5).ofBuf (Val := Elt F) v = v := id rfl
theorem toBuf_call3_v5 (v : (⟨S50000x64, .f32⟩ : BufTy).Contents (Elt F)) : (TRef.of (T := ⟨S50000x64, .f32⟩) main_call3_v5).toBuf (Val := Elt F) v = v := id rfl
theorem ofBuf_call3_v6 (v : (⟨S50000x64, .f32⟩ : BufTy).Contents (Elt F)) : (TRef.of (T := ⟨S50000x64, .f32⟩) main_call3_v6).ofBuf (Val := Elt F) v = v := id rfl
theorem toBuf_call3_v6 (v : (⟨S50000x64, .f32⟩ : BufTy).Contents (Elt F)) : (TRef.of (T := ⟨S50000x64, .f32⟩) main_call3_v6).toBuf (Val := Elt F) v = v := id rfl
theorem ofBuf_call3_cst_1 (v : (⟨S_, .f32⟩ : BufTy).Contents (Elt F)) : (TRef.of (T := ⟨S_, .f32⟩) main_call3_cst_1).ofBuf (Val := Elt F) v = v := id rfl
theorem toBuf_call3_cst_1 (v : (⟨S_, .f32⟩ : BufTy).Contents (Elt F)) : (TRef.of (T := ⟨S_, .f32⟩) main_call3_cst_1).toBuf (Val := Elt F) v = v := id rfl
theorem ofBuf_call3_v7 (v : (⟨S50000, .f32⟩ : BufTy).Contents (Elt F)) : (TRef.of (T := ⟨S50000, .f32⟩) main_call3_v7).ofBuf (Val := Elt F) v = v := id rfl
theorem toBuf_call3_v7 (v : (⟨S50000, .f32⟩ : BufTy).Contents (Elt F)) : (TRef.of (T := ⟨S50000, .f32⟩) main_call3_v7).toBuf (Val := Elt F) v = v := id rfl
theorem ofBuf_call3_v8 (v : (⟨S50000x1, .f32⟩ : BufTy).Contents (Elt F)) : (TRef.of (T := ⟨S50000x1, .f32⟩) main_call3_v8).ofBuf (Val := Elt F) v = v := id rfl
theorem toBuf_call3_v8 (v : (⟨S50000x1, .f32⟩ : BufTy).Contents (Elt F)) : (TRef.of (T := ⟨S50000x1, .f32⟩) main_call3_v8).toBuf (Val := Elt F) v = v := id rfl
theorem ofBuf_call3_v9 (v : (⟨S50000x1, .f32⟩ : BufTy).Contents (Elt F)) : (TRef.of (T := ⟨S50000x1, .f32⟩) main_call3_v9).ofBuf (Val := Elt F) v = v := id rfl
theorem toBuf_call3_v9 (v : (⟨S50000x1, .f32⟩ : BufTy).Contents (Elt F)) : (TRef.of (T := ⟨S50000x1, .f32⟩) main_call3_v9).toBuf (Val := Elt F) v = v := id rfl
theorem ofBuf_call3_v10 (v : (⟨S50000x64, .f32⟩ : BufTy).Contents (Elt F)) : (TRef.of (T := ⟨S50000x64, .f32⟩) main_call3_v10).ofBuf (Val := Elt F) v = v := id rfl
theorem toBuf_call3_v10 (v : (⟨S50000x64, .f32⟩ : BufTy).Contents (Elt F)) : (TRef.of (T := ⟨S50000x64, .f32⟩) main_call3_v10).toBuf (Val := Elt F) v = v := id rfl
theorem ofBuf_v92 (v : (⟨S50000x64, .f32⟩ : BufTy).Contents (Elt F)) : (TRef.of (T := ⟨S50000x64, .f32⟩) main_v92).ofBuf (Val := Elt F) v = v := id rfl
theorem toBuf_v92 (v : (⟨S50000x64, .f32⟩ : BufTy).Contents (Elt F)) : (TRef.of (T := ⟨S50000x64, .f32⟩) main_v92).toBuf (Val := Elt F) v = v := id rfl

/-! ## Each stage's value

Over any entering valuation `W` whose input buffers hold the stage functions of the arguments, the stage leaves the next
stage function of the arguments in its output buffer: the fold of the stage's operations computes the composed term over
`W` at the inputs, the hypotheses rewrite those, and the stage's own definitions unfold to the same term. -/

set_option maxHeartbeats 4000000 in
theorem stageA_v1 (W : Valuation τ sig (Elt F)) (x1 : (⟨S2x800000, .i32⟩ : BufTy).Contents (Elt F))
    (h_arg1 : W (Proc.devRef .tc main_arg1) = x1) :
    after sA W (Proc.devRef .tc main_v1) = val_main_v1 (F := F) x1 := by
  simp only [sA]
  after_results_simp
  rw [h_arg1]
  rfl

set_option maxHeartbeats 4000000 in
theorem stageA_v3 (W : Valuation τ sig (Elt F)) (x1 : (⟨S2x800000, .i32⟩ : BufTy).Contents (Elt F))
    (h_arg1 : W (Proc.devRef .tc main_arg1) = x1) :
    after sA W (Proc.devRef .tc main_v3) = val_main_v3 (F := F) x1 := by
  simp only [sA]
  after_results_simp
  rw [h_arg1]
  rfl

set_option maxHeartbeats 4000000 in
theorem stageA_v7 (W : Valuation τ sig (Elt F)) (x0 : (⟨S50000x128, .f32⟩ : BufTy).Contents (Elt F)) (x2 : (⟨S128x128, .f32⟩ : BufTy).Contents (Elt F)) (x3 : (⟨S128, .f32⟩ : BufTy).Contents (Elt F))
    (h_arg0 : W (Proc.devRef .tc main_arg0) = x0)
    (h_arg2 : W (Proc.devRef .tc main_arg2) = x2)
    (h_arg3 : W (Proc.devRef .tc main_arg3) = x3) :
    after sA W (Proc.devRef .tc main_v7) = val_main_v7 (F := F) x0 x2 x3 := by
  simp only [sA]
  after_results_simp
  rw [h_arg0, h_arg2, h_arg3]
  rfl

set_option maxHeartbeats 4000000 in
theorem stageA_v8 (W : Valuation τ sig (Elt F)) (x0 : (⟨S50000x128, .f32⟩ : BufTy).Contents (Elt F)) (x2 : (⟨S128x128, .f32⟩ : BufTy).Contents (Elt F)) (x3 : (⟨S128, .f32⟩ : BufTy).Contents (Elt F))
    (h_arg0 : W (Proc.devRef .tc main_arg0) = x0)
    (h_arg2 : W (Proc.devRef .tc main_arg2) = x2)
    (h_arg3 : W (Proc.devRef .tc main_arg3) = x3) :
    after sA W (Proc.devRef .tc main_v8) = val_main_v8 (F := F) x0 x2 x3 := by
  simp only [sA]
  after_results_simp
  rw [h_arg0, h_arg2, h_arg3]
  rfl

set_option maxHeartbeats 4000000 in
theorem stageB_v27 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F))
    (h_v8 : W (Proc.devRef .tc main_v8) = val_main_v8 (F := F) x0 x2 x3)
    (h_v1 : W (Proc.devRef .tc main_v1) = val_main_v1 (F := F) x1)
    (h_v3 : W (Proc.devRef .tc main_v3) = val_main_v3 (F := F) x1) :
    after sB W (Proc.devRef .tc main_v27) = val_main_v27 (F := F) x0 x1 x2 x3 := by
  simp only [sB]
  after_results_simp
  rw [h_v8, h_v1, h_v3]
  rfl

set_option maxHeartbeats 4000000 in
theorem stageC_v37 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F))
    (h_v27 : W (Proc.devRef .tc main_v27) = val_main_v27 (F := F) x0 x1 x2 x3)
    (h_v8 : W (Proc.devRef .tc main_v8) = val_main_v8 (F := F) x0 x2 x3)
    (h_v7 : W (Proc.devRef .tc main_v7) = val_main_v7 (F := F) x0 x2 x3)
    (h_arg4 : W (Proc.devRef .tc main_arg4) = x4)
    (h_arg5 : W (Proc.devRef .tc main_arg5) = x5)
    (h_arg6 : W (Proc.devRef .tc main_arg6) = x6) :
    after sC W (Proc.devRef .tc main_v37) = val_main_v37 (F := F) x0 x1 x2 x3 x4 x5 x6 := by
  simp only [sC]
  after_results_simp
  rw [h_v27, h_v8, h_v7, h_arg4, h_arg5, h_arg6]
  rfl

set_option maxHeartbeats 4000000 in
theorem stageD_v56 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F))
    (h_v37 : W (Proc.devRef .tc main_v37) = val_main_v37 (F := F) x0 x1 x2 x3 x4 x5 x6)
    (h_v1 : W (Proc.devRef .tc main_v1) = val_main_v1 (F := F) x1)
    (h_v3 : W (Proc.devRef .tc main_v3) = val_main_v3 (F := F) x1) :
    after sD W (Proc.devRef .tc main_v56) = val_main_v56 (F := F) x0 x1 x2 x3 x4 x5 x6 := by
  simp only [sD]
  after_results_simp
  rw [h_v37, h_v1, h_v3]
  rfl

set_option maxHeartbeats 4000000 in
theorem stageE_v66 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F))
    (h_v56 : W (Proc.devRef .tc main_v56) = val_main_v56 (F := F) x0 x1 x2 x3 x4 x5 x6)
    (h_v37 : W (Proc.devRef .tc main_v37) = val_main_v37 (F := F) x0 x1 x2 x3 x4 x5 x6)
    (h_v7 : W (Proc.devRef .tc main_v7) = val_main_v7 (F := F) x0 x2 x3)
    (h_arg7 : W (Proc.devRef .tc main_arg7) = x7)
    (h_arg8 : W (Proc.devRef .tc main_arg8) = x8)
    (h_arg9 : W (Proc.devRef .tc main_arg9) = x9) :
    after sE W (Proc.devRef .tc main_v66) = val_main_v66 (F := F) x0 x1 x2 x3 x4 x5 x6 x7 x8 x9 := by
  simp only [sE]
  after_results_simp
  rw [h_v56, h_v37, h_v7, h_arg7, h_arg8, h_arg9]
  rfl

set_option maxHeartbeats 4000000 in
theorem stageF_v85 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F))
    (h_v66 : W (Proc.devRef .tc main_v66) = val_main_v66 (F := F) x0 x1 x2 x3 x4 x5 x6 x7 x8 x9)
    (h_v1 : W (Proc.devRef .tc main_v1) = val_main_v1 (F := F) x1)
    (h_v3 : W (Proc.devRef .tc main_v3) = val_main_v3 (F := F) x1) :
    after sF W (Proc.devRef .tc main_v85) = val_main_v85 (F := F) x0 x1 x2 x3 x4 x5 x6 x7 x8 x9 := by
  simp only [sF]
  after_results_simp
  rw [h_v66, h_v1, h_v3]
  rfl

set_option maxHeartbeats 4000000 in
theorem stageG_v92 (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128x64, .f32⟩ : BufTy).Contents (Elt F)) (x11 : (⟨S128x64, .f32⟩ : BufTy).Contents (Elt F)) (x12 : (⟨S64, .f32⟩ : BufTy).Contents (Elt F))
    (h_v85 : W (Proc.devRef .tc main_v85) = val_main_v85 (F := F) x0 x1 x2 x3 x4 x5 x6 x7 x8 x9)
    (h_v66 : W (Proc.devRef .tc main_v66) = val_main_v66 (F := F) x0 x1 x2 x3 x4 x5 x6 x7 x8 x9)
    (h_arg10 : W (Proc.devRef .tc main_arg10) = x10)
    (h_arg11 : W (Proc.devRef .tc main_arg11) = x11)
    (h_arg12 : W (Proc.devRef .tc main_arg12) = x12) :
    after sG W (Proc.devRef .tc main_v92) = val_main_v92 (F := F) x0 x1 x2 x3 x4 x5 x6 x7 x8 x9 x10 x11 x12 := by
  simp only [sG]
  after_results_simp
  rw [h_v85, h_v66, h_arg10, h_arg11, h_arg12]
  simp only [ofBuf_call3_cst, toBuf_call3_cst, ofBuf_v91, toBuf_v91, ofBuf_call3_v0, toBuf_call3_v0, ofBuf_call3_cst_0, toBuf_call3_cst_0, ofBuf_call3_v1, toBuf_call3_v1, ofBuf_call3_v2, toBuf_call3_v2, ofBuf_call3_v3, toBuf_call3_v3, ofBuf_call3_v4, toBuf_call3_v4, ofBuf_call3_v5, toBuf_call3_v5, ofBuf_call3_v6, toBuf_call3_v6, ofBuf_call3_cst_1, toBuf_call3_cst_1, ofBuf_call3_v7, toBuf_call3_v7, ofBuf_call3_v8, toBuf_call3_v8, ofBuf_call3_v9, toBuf_call3_v9, ofBuf_call3_v10, toBuf_call3_v10, ofBuf_v92, toBuf_v92]
  rfl

/-! ## The seven boundaries in turn -/

/-- The result buffer after the whole program, from contents whose argument buffers hold `x0 … x12`: the last stage's
    value of the arguments. Each boundary's facts follow from the previous boundary's by the stage's own lemma (for the
    buffer it computes) and by its leaving the others alone. -/
theorem result (W : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x128, .f32⟩ : BufTy).Contents (Elt F)) (x9 : (⟨S128, .f32⟩ : BufTy).Contents (Elt F)) (x10 : (⟨S128x64, .f32⟩ : BufTy).Contents (Elt F)) (x11 : (⟨S128x64, .f32⟩ : BufTy).Contents (Elt F)) (x12 : (⟨S64, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12) :
    after ops W (Proc.devRef .tc main_v92) = val_main_v92 (F := F) x0 x1 x2 x3 x4 x5 x6 x7 x8 x9 x10 x11 x12 := by
  rw [after_ops]
  have a_v1 := stageA_v1 W x1 h_arg1
  have a_v3 := stageA_v3 W x1 h_arg1
  have a_v7 := stageA_v7 W x0 x2 x3 h_arg0 h_arg2 h_arg3
  have a_v8 := stageA_v8 W x0 x2 x3 h_arg0 h_arg2 h_arg3
  have a_arg4 : after sA W (Proc.devRef .tc main_arg4) = x4 := (keepA W main_arg4 (by decide)).trans h_arg4
  have a_arg5 : after sA W (Proc.devRef .tc main_arg5) = x5 := (keepA W main_arg5 (by decide)).trans h_arg5
  have a_arg6 : after sA W (Proc.devRef .tc main_arg6) = x6 := (keepA W main_arg6 (by decide)).trans h_arg6
  have a_arg7 : after sA W (Proc.devRef .tc main_arg7) = x7 := (keepA W main_arg7 (by decide)).trans h_arg7
  have a_arg8 : after sA W (Proc.devRef .tc main_arg8) = x8 := (keepA W main_arg8 (by decide)).trans h_arg8
  have a_arg9 : after sA W (Proc.devRef .tc main_arg9) = x9 := (keepA W main_arg9 (by decide)).trans h_arg9
  have a_arg10 : after sA W (Proc.devRef .tc main_arg10) = x10 := (keepA W main_arg10 (by decide)).trans h_arg10
  have a_arg11 : after sA W (Proc.devRef .tc main_arg11) = x11 := (keepA W main_arg11 (by decide)).trans h_arg11
  have a_arg12 : after sA W (Proc.devRef .tc main_arg12) = x12 := (keepA W main_arg12 (by decide)).trans h_arg12
  have b_v27 := stageB_v27 (after sA W) x0 x1 x2 x3 a_v8 a_v1 a_v3
  have b_v1 : after sB (after sA W) (Proc.devRef .tc main_v1) = val_main_v1 (F := F) x1 := (keepB (after sA W) main_v1 (by decide)).trans a_v1
  have b_v3 : after sB (after sA W) (Proc.devRef .tc main_v3) = val_main_v3 (F := F) x1 := (keepB (after sA W) main_v3 (by decide)).trans a_v3
  have b_v7 : after sB (after sA W) (Proc.devRef .tc main_v7) = val_main_v7 (F := F) x0 x2 x3 := (keepB (after sA W) main_v7 (by decide)).trans a_v7
  have b_v8 : after sB (after sA W) (Proc.devRef .tc main_v8) = val_main_v8 (F := F) x0 x2 x3 := (keepB (after sA W) main_v8 (by decide)).trans a_v8
  have b_arg4 : after sB (after sA W) (Proc.devRef .tc main_arg4) = x4 := (keepB (after sA W) main_arg4 (by decide)).trans a_arg4
  have b_arg5 : after sB (after sA W) (Proc.devRef .tc main_arg5) = x5 := (keepB (after sA W) main_arg5 (by decide)).trans a_arg5
  have b_arg6 : after sB (after sA W) (Proc.devRef .tc main_arg6) = x6 := (keepB (after sA W) main_arg6 (by decide)).trans a_arg6
  have b_arg7 : after sB (after sA W) (Proc.devRef .tc main_arg7) = x7 := (keepB (after sA W) main_arg7 (by decide)).trans a_arg7
  have b_arg8 : after sB (after sA W) (Proc.devRef .tc main_arg8) = x8 := (keepB (after sA W) main_arg8 (by decide)).trans a_arg8
  have b_arg9 : after sB (after sA W) (Proc.devRef .tc main_arg9) = x9 := (keepB (after sA W) main_arg9 (by decide)).trans a_arg9
  have b_arg10 : after sB (after sA W) (Proc.devRef .tc main_arg10) = x10 := (keepB (after sA W) main_arg10 (by decide)).trans a_arg10
  have b_arg11 : after sB (after sA W) (Proc.devRef .tc main_arg11) = x11 := (keepB (after sA W) main_arg11 (by decide)).trans a_arg11
  have b_arg12 : after sB (after sA W) (Proc.devRef .tc main_arg12) = x12 := (keepB (after sA W) main_arg12 (by decide)).trans a_arg12
  have c_v37 := stageC_v37 (after sB (after sA W)) x0 x1 x2 x3 x4 x5 x6 b_v27 b_v8 b_v7 b_arg4 b_arg5 b_arg6
  have c_v1 : after sC (after sB (after sA W)) (Proc.devRef .tc main_v1) = val_main_v1 (F := F) x1 := (keepC (after sB (after sA W)) main_v1 (by decide)).trans b_v1
  have c_v3 : after sC (after sB (after sA W)) (Proc.devRef .tc main_v3) = val_main_v3 (F := F) x1 := (keepC (after sB (after sA W)) main_v3 (by decide)).trans b_v3
  have c_v7 : after sC (after sB (after sA W)) (Proc.devRef .tc main_v7) = val_main_v7 (F := F) x0 x2 x3 := (keepC (after sB (after sA W)) main_v7 (by decide)).trans b_v7
  have c_arg7 : after sC (after sB (after sA W)) (Proc.devRef .tc main_arg7) = x7 := (keepC (after sB (after sA W)) main_arg7 (by decide)).trans b_arg7
  have c_arg8 : after sC (after sB (after sA W)) (Proc.devRef .tc main_arg8) = x8 := (keepC (after sB (after sA W)) main_arg8 (by decide)).trans b_arg8
  have c_arg9 : after sC (after sB (after sA W)) (Proc.devRef .tc main_arg9) = x9 := (keepC (after sB (after sA W)) main_arg9 (by decide)).trans b_arg9
  have c_arg10 : after sC (after sB (after sA W)) (Proc.devRef .tc main_arg10) = x10 := (keepC (after sB (after sA W)) main_arg10 (by decide)).trans b_arg10
  have c_arg11 : after sC (after sB (after sA W)) (Proc.devRef .tc main_arg11) = x11 := (keepC (after sB (after sA W)) main_arg11 (by decide)).trans b_arg11
  have c_arg12 : after sC (after sB (after sA W)) (Proc.devRef .tc main_arg12) = x12 := (keepC (after sB (after sA W)) main_arg12 (by decide)).trans b_arg12
  have d_v56 := stageD_v56 (after sC (after sB (after sA W))) x0 x1 x2 x3 x4 x5 x6 c_v37 c_v1 c_v3
  have d_v1 : after sD (after sC (after sB (after sA W))) (Proc.devRef .tc main_v1) = val_main_v1 (F := F) x1 := (keepD (after sC (after sB (after sA W))) main_v1 (by decide)).trans c_v1
  have d_v3 : after sD (after sC (after sB (after sA W))) (Proc.devRef .tc main_v3) = val_main_v3 (F := F) x1 := (keepD (after sC (after sB (after sA W))) main_v3 (by decide)).trans c_v3
  have d_v7 : after sD (after sC (after sB (after sA W))) (Proc.devRef .tc main_v7) = val_main_v7 (F := F) x0 x2 x3 := (keepD (after sC (after sB (after sA W))) main_v7 (by decide)).trans c_v7
  have d_v37 : after sD (after sC (after sB (after sA W))) (Proc.devRef .tc main_v37) = val_main_v37 (F := F) x0 x1 x2 x3 x4 x5 x6 := (keepD (after sC (after sB (after sA W))) main_v37 (by decide)).trans c_v37
  have d_arg7 : after sD (after sC (after sB (after sA W))) (Proc.devRef .tc main_arg7) = x7 := (keepD (after sC (after sB (after sA W))) main_arg7 (by decide)).trans c_arg7
  have d_arg8 : after sD (after sC (after sB (after sA W))) (Proc.devRef .tc main_arg8) = x8 := (keepD (after sC (after sB (after sA W))) main_arg8 (by decide)).trans c_arg8
  have d_arg9 : after sD (after sC (after sB (after sA W))) (Proc.devRef .tc main_arg9) = x9 := (keepD (after sC (after sB (after sA W))) main_arg9 (by decide)).trans c_arg9
  have d_arg10 : after sD (after sC (after sB (after sA W))) (Proc.devRef .tc main_arg10) = x10 := (keepD (after sC (after sB (after sA W))) main_arg10 (by decide)).trans c_arg10
  have d_arg11 : after sD (after sC (after sB (after sA W))) (Proc.devRef .tc main_arg11) = x11 := (keepD (after sC (after sB (after sA W))) main_arg11 (by decide)).trans c_arg11
  have d_arg12 : after sD (after sC (after sB (after sA W))) (Proc.devRef .tc main_arg12) = x12 := (keepD (after sC (after sB (after sA W))) main_arg12 (by decide)).trans c_arg12
  have e_v66 := stageE_v66 (after sD (after sC (after sB (after sA W)))) x0 x1 x2 x3 x4 x5 x6 x7 x8 x9 d_v56 d_v37 d_v7 d_arg7 d_arg8 d_arg9
  have e_v1 : after sE (after sD (after sC (after sB (after sA W)))) (Proc.devRef .tc main_v1) = val_main_v1 (F := F) x1 := (keepE (after sD (after sC (after sB (after sA W)))) main_v1 (by decide)).trans d_v1
  have e_v3 : after sE (after sD (after sC (after sB (after sA W)))) (Proc.devRef .tc main_v3) = val_main_v3 (F := F) x1 := (keepE (after sD (after sC (after sB (after sA W)))) main_v3 (by decide)).trans d_v3
  have e_arg10 : after sE (after sD (after sC (after sB (after sA W)))) (Proc.devRef .tc main_arg10) = x10 := (keepE (after sD (after sC (after sB (after sA W)))) main_arg10 (by decide)).trans d_arg10
  have e_arg11 : after sE (after sD (after sC (after sB (after sA W)))) (Proc.devRef .tc main_arg11) = x11 := (keepE (after sD (after sC (after sB (after sA W)))) main_arg11 (by decide)).trans d_arg11
  have e_arg12 : after sE (after sD (after sC (after sB (after sA W)))) (Proc.devRef .tc main_arg12) = x12 := (keepE (after sD (after sC (after sB (after sA W)))) main_arg12 (by decide)).trans d_arg12
  have f_v85 := stageF_v85 (after sE (after sD (after sC (after sB (after sA W))))) x0 x1 x2 x3 x4 x5 x6 x7 x8 x9 e_v66 e_v1 e_v3
  have f_v66 : after sF (after sE (after sD (after sC (after sB (after sA W))))) (Proc.devRef .tc main_v66) = val_main_v66 (F := F) x0 x1 x2 x3 x4 x5 x6 x7 x8 x9 := (keepF (after sE (after sD (after sC (after sB (after sA W))))) main_v66 (by decide)).trans e_v66
  have f_arg10 : after sF (after sE (after sD (after sC (after sB (after sA W))))) (Proc.devRef .tc main_arg10) = x10 := (keepF (after sE (after sD (after sC (after sB (after sA W))))) main_arg10 (by decide)).trans e_arg10
  have f_arg11 : after sF (after sE (after sD (after sC (after sB (after sA W))))) (Proc.devRef .tc main_arg11) = x11 := (keepF (after sE (after sD (after sC (after sB (after sA W))))) main_arg11 (by decide)).trans e_arg11
  have f_arg12 : after sF (after sE (after sD (after sC (after sB (after sA W))))) (Proc.devRef .tc main_arg12) = x12 := (keepF (after sE (after sD (after sC (after sB (after sA W))))) main_arg12 (by decide)).trans e_arg12
  exact stageG_v92 (after sF (after sE (after sD (after sC (after sB (after sA W)))))) x0 x1 x2 x3 x4 x5 x6 x7 x8 x9 x10 x11 x12 f_v85 f_v66 f_arg10 f_arg11 f_arg12

/-! ## The run -/

/-- On every device, from any memory with zero counters: every weakly fair execution of the reference's @main
    terminates with the result buffer at the last stage's value of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v92).trans (result (launchContents m c) _ _ _ _ _ _ _ _ _ _ _ _ _ rfl rfl rfl rfl rfl rfl rfl rfl rfl rfl rfl rfl rfl),
      (h c main_arg0).trans (keep_ops (launchContents m c) main_arg0 (by decide) (by decide) (by decide) (by decide) (by decide) (by decide) (by decide)),
      (h c main_arg1).trans (keep_ops (launchContents m c) main_arg1 (by decide) (by decide) (by decide) (by decide) (by decide) (by decide) (by decide)),
      (h c main_arg2).trans (keep_ops (launchContents m c) main_arg2 (by decide) (by decide) (by decide) (by decide) (by decide) (by decide) (by decide)),
      (h c main_arg3).trans (keep_ops (launchContents m c) main_arg3 (by decide) (by decide) (by decide) (by decide) (by decide) (by decide) (by decide)),
      (h c main_arg4).trans (keep_ops (launchContents m c) main_arg4 (by decide) (by decide) (by decide) (by decide) (by decide) (by decide) (by decide)),
      (h c main_arg5).trans (keep_ops (launchContents m c) main_arg5 (by decide) (by decide) (by decide) (by decide) (by decide) (by decide) (by decide)),
      (h c main_arg6).trans (keep_ops (launchContents m c) main_arg6 (by decide) (by decide) (by decide) (by decide) (by decide) (by decide) (by decide)),
      (h c main_arg7).trans (keep_ops (launchContents m c) main_arg7 (by decide) (by decide) (by decide) (by decide) (by decide) (by decide) (by decide)),
      (h c main_arg8).trans (keep_ops (launchContents m c) main_arg8 (by decide) (by decide) (by decide) (by decide) (by decide) (by decide) (by decide)),
      (h c main_arg9).trans (keep_ops (launchContents m c) main_arg9 (by decide) (by decide) (by decide) (by decide) (by decide) (by decide) (by decide)),
      (h c main_arg10).trans (keep_ops (launchContents m c) main_arg10 (by decide) (by decide) (by decide) (by decide) (by decide) (by decide) (by decide)),
      (h c main_arg11).trans (keep_ops (launchContents m c) main_arg11 (by decide) (by decide) (by decide) (by decide) (by decide) (by decide) (by decide)),
      (h c main_arg12).trans (keep_ops (launchContents m c) main_arg12 (by decide) (by decide) (by decide) (by decide) (by decide) (by decide) (by decide))⟩)
    (run_seq scopedRefs_eq scopedSems_eq defs main (fun _ => ops) main_eq (fun _ => ops_sub) m ρ)

end Cert.Bridge.RefChain

end
-- ==== Proof.lean ====
/-
  The certificate: the Pallas implementation of a three-layer mean-aggregating graph network (an input projection, two
  convolution layers with a residual, an output layer with a log-softmax, on 50000 nodes and 800000 edges) against its
  jnp reference, at the ideal instance.

  The mathematics. Both programs compute the same network; they differ in three ways, none of which changes a value
  on the extended reals. (1) The kernels cast their matrix operands to bf16 and work on blocks of 2000 rows; a change
  of float format is the identity at the ideal instance, a matrix product into a zero accumulator is the plain sum over
  the contracted index, and every kernel's row r depends on row r of its inputs only, so the 25 blocks of a pipeline
  assemble the whole-array function. (2) The neighbour mean: the reference divides the edge sum by max (deg, 1), the
  kernel's program multiplies it by 1 / max (deg, 1); x / d = x · d⁻¹ and 1 / d = d⁻¹ for every nonzero d of the extended
  reals, and max (deg, 1) ≥ 1 is not zero. (3) The reference's log-softmax takes max (−∞, row maximum), which is the row
  maximum. No law used needs finiteness, so the precondition is never opened.

  The proof. The reference's own stages, read as functions of its arguments, serve as the specification of every
  intermediate array. The kernel's run is walked segment by segment (four pipelines among four stretches of host
  operations), each live buffer identified with a stage of the reference; the last one is the result. The reference's run
  is read the same way. The three frame conjuncts are the generated frames (the reference's: its run with the result
  dropped); the idealization rewrote no operation, so `preserves` is `True`.
-/
import proofs.«154582_j15977278341936_1_alg».proof.Defs
import proofs.«154582_j15977278341936_1_alg».proof.Proof.Gen.Kernel
import proofs.«154582_j15977278341936_1_alg».proof.Proof.Gen.Kernel.Skeleton
import proofs.«154582_j15977278341936_1_alg».proof.Proof.Gen.Kernel.Launch
import proofs.«154582_j15977278341936_1_alg».proof.Proof.Gen.Kernel.Points
import proofs.«154582_j15977278341936_1_alg».proof.Proof.Gen.Kernel.Frame
import proofs.«154582_j15977278341936_1_alg».proof.Proof.Gen.KernelIdeal
import proofs.«154582_j15977278341936_1_alg».proof.Proof.Gen.KernelIdeal.Skeleton
import proofs.«154582_j15977278341936_1_alg».proof.Proof.Gen.KernelIdeal.Launch
import proofs.«154582_j15977278341936_1_alg».proof.Proof.Gen.KernelIdeal.Points
import proofs.«154582_j15977278341936_1_alg».proof.Proof.Gen.KernelIdeal.Frame
import proofs.«154582_j15977278341936_1_alg».proof.Proof.Gen.ReferenceIdeal
import proofs.«154582_j15977278341936_1_alg».proof.Proof.Gen.Pre_finite_inputs
import proofs.«154582_j15977278341936_1_alg».proof.Proof.KernelRun
import proofs.«154582_j15977278341936_1_alg».proof.Proof.KOut
import proofs.«154582_j15977278341936_1_alg».proof.Proof.RefChain
import Idealize.ShloMosaic.Adequacy
import Idealize.ShloMosaic.Init

noncomputable section

namespace Cert.Proof

open Idealize.ShloMosaic Idealize.SL.Sem

/-- The word-level kernel's frame and the idealized kernel's: the generated frames of the eight-segment run. -/
theorem frame_k : Cert.frame_Kernel := fun m ρ _ => Cert.Kernel.Gen.frame m ρ
theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.Bridge.RefChain.run m ρ)

/-- The idealization rewrote no operation. -/
theorem preserves : Cert.preserves_Kernel_KernelIdeal := trivial

/-- From memories agreeing on the thirteen arguments both programs end with the result array at the reference's last
    stage of those arguments: the kernel's by the walk through its segments, the reference's by its own run. -/
theorem algebraic : Cert.algebraic_KernelIdeal_ReferenceIdeal := by
  intro m ρ m' ρ' _ hagree
  refine ⟨fun c => Cert.ReferenceIdeal.ReadP.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.Bridge.KValue.w8_out m ρ c), (h c).2⟩) (Cert.Bridge.Run.run_result m ρ)
  · refine (θ_run Cert.ReferenceIdeal.defs _ _).mono (fun _ h c => ⟨(h c).1.trans ?_, (h c).2⟩) (Cert.Bridge.RefChain.run m' ρ')
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
